-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S64x96 : Shape := ⟨2, ![64, 96]⟩
abbrev S96 : Shape := ⟨1, ![96]⟩
abbrev S96x96 : Shape := ⟨2, ![96, 96]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_

variable [Facts]

def fn_part9 {F : FTy → Type} [FloatOps F] (main_arg31 : FVec F S96 .f32) (main_v153 : IVec S_ 1) : IVec S_ 1 :=
  let main_v154 : FVec F S96 .f32 := Host.absf main_arg31
  let main_cst_60 : FVec F S_ .f32 := constant S_ .f32 0x7F800000#32
  let main_v155 : FVec F S96 .f32 := broadcastInDim S96 ![] bcast_S_S96 main_cst_60
  let main_v156 : IVec S96 1 := cmpf .olt main_v154 main_v155
  let main_c_61 : IVec S_ 1 := constantI S_ 1 1#1
  let main_v157 : IVec S_ 1 := (fun x v => Host.reduce IntOp.andi x v reducesTo_S96_S_d0 h_S_) main_v156 main_c_61
  let main_v158 : IVec S_ 1 := andi main_v153 main_v157
  main_v158

def fn_part8 {F : FTy → Type} [FloatOps F] (main_arg28 : FVec F S96 .f32) (main_arg29 : FVec F S96 .f32) (main_arg30 : FVec F S96 .f32) (main_arg31 : FVec F S96 .f32) (main_v133 : IVec S_ 1) (main_v136 : IVec S96 1) : IVec S_ 1 :=
  let main_c_53 : IVec S_ 1 := constantI S_ 1 1#1
  let main_v137 : IVec S_ 1 := (fun x v => Host.reduce IntOp.andi x v reducesTo_S96_S_d0 h_S_) main_v136 main_c_53
  let main_v138 : IVec S_ 1 := andi main_v133 main_v137
  let main_v139 : FVec F S96 .f32 := Host.absf main_arg28
  let main_cst_54 : FVec F S_ .f32 := constant S_ .f32 0x7F800000#32
  let main_v140 : FVec F S96 .f32 := broadcastInDim S96 ![] bcast_S_S96 main_cst_54
  let main_v141 : IVec S96 1 := cmpf .olt main_v139 main_v140
  let main_c_55 : IVec S_ 1 := constantI S_ 1 1#1
  let main_v142 : IVec S_ 1 := (fun x v => Host.reduce IntOp.andi x v reducesTo_S96_S_d0 h_S_) main_v141 main_c_55
  let main_v143 : IVec S_ 1 := andi main_v138 main_v142
  let main_v144 : FVec F S96 .f32 := Host.absf main_arg29
  let main_cst_56 : FVec F S_ .f32 := constant S_ .f32 0x7F800000#32
  let main_v145 : FVec F S96 .f32 := broadcastInDim S96 ![] bcast_S_S96 main_cst_56
  let main_v146 : IVec S96 1 := cmpf .olt main_v144 main_v145
  let main_c_57 : IVec S_ 1 := constantI S_ 1 1#1
  let main_v147 : IVec S_ 1 := (fun x v => Host.reduce IntOp.andi x v reducesTo_S96_S_d0 h_S_) main_v146 main_c_57
  let main_v148 : IVec S_ 1 := andi main_v143 main_v147
  let main_v149 : FVec F S96 .f32 := Host.absf main_arg30
  let main_cst_58 : FVec F S_ .f32 := constant S_ .f32 0x7F800000#32
  let main_v150 : FVec F S96 .f32 := broadcastInDim S96 ![] bcast_S_S96 main_cst_58
  let main_v151 : IVec S96 1 := cmpf .olt main_v149 main_v150
  let main_c_59 : IVec S_ 1 := constantI S_ 1 1#1
  let main_v152 : IVec S_ 1 := (fun x v => Host.reduce IntOp.andi x v reducesTo_S96_S_d0 h_S_) main_v151 main_c_59
  let main_v153 : IVec S_ 1 := andi main_v148 main_v152
  fn_part9 (F := F) main_arg31 main_v153

def fn_part7 {F : FTy → Type} [FloatOps F] (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v118 : IVec S_ 1) (main_v119 : FVec F S64x96 .f32) : IVec S_ 1 :=
  let main_cst_46 : FVec F S_ .f32 := constant S_ .f32 0x7F800000#32
  let main_v120 : FVec F S64x96 .f32 := broadcastInDim S64x96 ![] bcast_S_S64x96 main_cst_46
  let main_v121 : IVec S64x96 1 := cmpf .olt main_v119 main_v120
  let main_c_47 : IVec S_ 1 := constantI S_ 1 1#1
  let main_v122 : IVec S_ 1 := (fun x v => Host.reduce IntOp.andi x v reducesTo_S64x96_S_d0_1 h_S_) main_v121 main_c_47
  let main_v123 : IVec S_ 1 := andi main_v118 main_v122
  let main_v124 : FVec F S96 .f32 := Host.absf main_arg25
  let main_cst_48 : FVec F S_ .f32 := constant S_ .f32 0x7F800000#32
  let main_v125 : FVec F S96 .f32 := broadcastInDim S96 ![] bcast_S_S96 main_cst_48
  let main_v126 : IVec S96 1 := cmpf .olt main_v124 main_v125
  let main_c_49 : IVec S_ 1 := constantI S_ 1 1#1
  let main_v127 : IVec S_ 1 := (fun x v => Host.reduce IntOp.andi x v reducesTo_S96_S_d0 h_S_) main_v126 main_c_49
  let main_v128 : IVec S_ 1 := andi main_v123 main_v127
  let main_v129 : FVec F S96x96 .f32 := Host.absf main_arg26
  let main_cst_50 : FVec F S_ .f32 := constant S_ .f32 0x7F800000#32
  let main_v130 : FVec F S96x96 .f32 := broadcastInDim S96x96 ![] bcast_S_S96x96 main_cst_50
  let main_v131 : IVec S96x96 1 := cmpf .olt main_v129 main_v130
  let main_c_51 : IVec S_ 1 := constantI S_ 1 1#1
  let main_v132 : IVec S_ 1 := (fun x v => Host.reduce IntOp.andi x v reducesTo_S96x96_S_d0_1 h_S_) main_v131 main_c_51
  let main_v133 : IVec S_ 1 := andi main_v128 main_v132
  let main_v134 : FVec F S96 .f32 := Host.absf main_arg27
  let main_cst_52 : FVec F S_ .f32 := constant S_ .f32 0x7F800000#32
  let main_v135 : FVec F S96 .f32 := broadcastInDim S96 ![] bcast_S_S96 main_cst_52
  let main_v136 : IVec S96 1 := cmpf .olt main_v134 main_v135
  fn_part8 (F := F) main_arg28 main_arg29 main_arg30 main_arg31 main_v133 main_v136

def fn_part6 {F : FTy → Type} [FloatOps F] (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S32x64 .f32 := Host.absf main_arg22
  let main_cst_42 : FVec F S_ .f32 := constant S_ .f32 0x7F800000#32
  let main_v110 : FVec F S32x64 .f32 := broadcastInDim S32x64 ![] bcast_S_S32x64 main_cst_42
  let main_v111 : IVec S32x64 1 := cmpf .olt main_v109 main_v110
  let main_c_43 : IVec S_ 1 := constantI S_ 1 1#1
  let main_v112 : IVec S_ 1 := (fun x v => Host.reduce IntOp.andi x v reducesTo_S32x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x96 .f32 := Host.absf main_arg24
  fn_part7 (F := F) main_arg25 main_arg26 main_arg27 main_arg28 main_arg29 main_arg30 main_arg31 main_v118 main_v119

def fn_part5 {F : FTy → Type} [FloatOps F] (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S64 .f32) (main_arg12 : FVec F S32x64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S64 .f32) (main_arg8 : FVec F S64 .f32) (main_arg9 : FVec F S64 .f32) (main_arg10 : FVec F S64 .f32) (main_arg11 : FVec F S64 .f32) (main_arg12 : FVec F S32x64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S32x64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S50000x128 .f32) (main_arg1 : FVec F S800000x32 .f32) (main_arg2 : FVec F S32x128 .f32) (main_arg3 : FVec F S128 .f32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S32x64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S32x64 .f32) (main_arg23 : FVec F S64 .f32) (main_arg24 : FVec F S64x96 .f32) (main_arg25 : FVec F S96 .f32) (main_arg26 : FVec F S96x96 .f32) (main_arg27 : FVec F S96 .f32) (main_arg28 : FVec F S96 .f32) (main_arg29 : FVec F S96 .f32) (main_arg30 : FVec F S96 .f32) (main_arg31 : FVec F S96 .f32) (main_arg32 : IVec S2x800000 32) (main_arg33 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S50000x128 : Shape := ⟨2, ![50000, 128]⟩
abbrev S800000x32 : Shape := ⟨2, ![800000, 32]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S64x96 : Shape := ⟨2, ![64, 96]⟩
abbrev S96 : Shape := ⟨1, ![96]⟩
abbrev S96x96 : Shape := ⟨2, ![96, 96]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S8000x32 : Shape := ⟨2, ![8000, 32]⟩
abbrev S8000x128 : Shape := ⟨2, ![8000, 128]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S800000x64 : Shape := ⟨2, ![800000, 64]⟩
abbrev S8000x64 : Shape := ⟨2, ![8000, 64]⟩
abbrev S50000x96 : Shape := ⟨2, ![50000, 96]⟩
abbrev S5000x96 : Shape := ⟨2, ![5000, 96]⟩
abbrev S1x96 : Shape := ⟨2, ![1, 96]⟩
abbrev S50000x1 : Shape := ⟨2, ![50000, 1]⟩
abbrev S64x1 : Shape := ⟨2, ![64, 1]⟩

abbrev nBuf : Space → Nat
  | .hbm => 99
  | .vmem => 66
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S32x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S32x64, .f32⟩
  | .hbm, ⟨23, _⟩ => ⟨S64, .f32⟩
  | .hbm, ⟨24, _⟩ => ⟨S64x96, .f32⟩
  | .hbm, ⟨25, _⟩ => ⟨S96, .f32⟩
  | .hbm, ⟨26, _⟩ => ⟨S96x96, .f32⟩
  | .hbm, ⟨27, _⟩ => ⟨S96, .f32⟩
  | .hbm, ⟨28, _⟩ => ⟨S96, .f32⟩
  | .hbm, ⟨29, _⟩ => ⟨S96, .f32⟩
  | .hbm, ⟨30, _⟩ => ⟨S96, .f32⟩
  | .hbm, ⟨31, _⟩ => ⟨S96, .f32⟩
  | .hbm, ⟨32, _⟩ => ⟨S2x800000, .i32⟩
  | .hbm, ⟨33, _⟩ => ⟨S50000, .i32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S50000x96, .f32⟩
  | .hbm, ⟨83, _⟩ => ⟨S_, .f32⟩
  | .hbm, ⟨84, _⟩ => ⟨S64x96, .f32⟩
  | .hbm, ⟨85, _⟩ => ⟨S50000x1, .i32⟩
  | .hbm, ⟨86, _⟩ => ⟨S64x96, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S64, .f32⟩
  | .hbm, ⟨91, _⟩ => ⟨S50000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x96, .f32⟩
  | .hbm, ⟨98, _⟩ => ⟨S64x96, .f32⟩
  | .local _ .vmem, ⟨0, _⟩ => ⟨S8000x32, .f32⟩
  | .local _ .vmem, ⟨1, _⟩ => ⟨S8000x32, .f32⟩
  | .local _ .vmem, ⟨2, _⟩ => ⟨S8000x128, .f32⟩
  | .local _ .vmem, ⟨3, _⟩ => ⟨S8000x128, .f32⟩
  | .local _ .vmem, ⟨4, _⟩ => ⟨S32x128, .f32⟩
  | .local _ .vmem, ⟨5, _⟩ => ⟨S128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S8000x32, .f32⟩
  | .local _ .vmem, ⟨23, _⟩ => ⟨S8000x32, .f32⟩
  | .local _ .vmem, ⟨24, _⟩ => ⟨S8000x64, .f32⟩
  | .local _ .vmem, ⟨25, _⟩ => ⟨S8000x64, .f32⟩
  | .local _ .vmem, ⟨26, _⟩ => ⟨S32x64, .f32⟩
  | .local _ .vmem, ⟨27, _⟩ => ⟨S64, .f32⟩
  | .local _ .vmem, ⟨28, _⟩ => ⟨S8000x64, .f32⟩
  | .local _ .vmem, ⟨29, _⟩ => ⟨S8000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | .local _ .vmem, ⟨44, _⟩ => ⟨S8000x32, .f32⟩
  | .local _ .vmem, ⟨45, _⟩ => ⟨S8000x32, .f32⟩
  | .local _ .vmem, ⟨46, _⟩ => ⟨S8000x64, .f32⟩
  | .local _ .vmem, ⟨47, _⟩ => ⟨S8000x64, .f32⟩
  | .local _ .vmem, ⟨48, _⟩ => ⟨S32x64, .f32⟩
  | .local _ .vmem, ⟨49, _⟩ => ⟨S64, .f32⟩
  | .local _ .vmem, ⟨50, _⟩ => ⟨S8000x64, .f32⟩
  | .local _ .vmem, ⟨51, _⟩ => ⟨S8000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x96, .f32⟩
  | .local _ .vmem, ⟨57, _⟩ => ⟨S96, .f32⟩
  | .local _ .vmem, ⟨58, _⟩ => ⟨S96x96, .f32⟩
  | .local _ .vmem, ⟨59, _⟩ => ⟨S96, .f32⟩
  | .local _ .vmem, ⟨60, _⟩ => ⟨S96, .f32⟩
  | .local _ .vmem, ⟨61, _⟩ => ⟨S96, .f32⟩
  | .local _ .vmem, ⟨62, _⟩ => ⟨S96, .f32⟩
  | .local _ .vmem, ⟨63, _⟩ => ⟨S96, .f32⟩
  | .local _ .vmem, ⟨64, _⟩ => ⟨S5000x96, .f32⟩
  | .local _ .vmem, ⟨65, _⟩ => ⟨S5000x96, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_c_2 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_3 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_4 : Ref sig .tc := ⟨.hbm, 68, rfl⟩
abbrev main_v28 : Ref sig .tc := ⟨.hbm, 69, rfl⟩
abbrev main_v29 : Ref sig .tc := ⟨.hbm, 70, rfl⟩
abbrev main_c_5 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_6 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_8 : Ref sig .tc := ⟨.hbm, 87, rfl⟩
abbrev main_v43 : Ref sig .tc := ⟨.hbm, 88, rfl⟩
abbrev main_cst_9 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_10 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg10_0 : Ref sig .tc := ⟨.vmem, 64, rfl⟩
abbrev cc5_stg10_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S96x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S96 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S96 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S96 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x96 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S8000x32_S8000x32_0_0 : ∀ a, (![0, 0] : Fin 2 → Nat) a + S8000x32.size a ≤ S8000x32.size a
  h_S8000x32 : 0 < S8000x32.numel
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  shapeCasts_S5000x64_S5000x64 : S5000x64.ShapeCasts S5000x64
  inb_S64x96_S64x96_0_0 : ∀ a, (![0, 0] : Fin 2 → Nat) a + S64x96.size a ≤ S64x96.size a
  h_S64x96 : 0 < S64x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  inb_S5000x96_S5000x96_0_0 : ∀ a, (![0, 0] : Fin 2 → Nat) a + S5000x96.size a ≤ S5000x96.size a
  h_S5000x96 : 0 < S5000x96.numel
  bcast_S_S64x96 : S_.BroadcastsInDim S64x96 (![] : Fin 0 → Fin S64x96.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  gather_S50000x128_S800000x1_S800000x128_1_0_n_n_0_1_1128_wf : GatherDims.WF S50000x128 S800000x1 S800000x128 [1] [0] [] [0] [] 1 ![1, 128]
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S5000x64_S64x96_S5000x96_1_0_0_1_n_n_wf : DotDims.WF S5000x64 S64x96 S5000x96 [1] [0] [0] [1] [] []
  dot_S5000x96_S96x96_S5000x96_1_0_0_1_n_n_wf : DotDims.WF S5000x96 S96x96 S5000x96 [1] [0] [0] [1] [] []
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S800000x32.size a
  hwx2_0 : ∀ i : grid2.Coords, EltTy.bits .f32 = 32 ∨ (Rect.block (s := S800000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S800000x64.size a
  hwx2_4 : ∀ i : grid2.Coords, EltTy.bits .f32 = 32 ∨ (Rect.block (s := S800000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64.size a ≤ S64.size a
  hwx3_9 : ∀ i : grid3.Coords, EltTy.bits .f32 = 32 ∨ (Rect.block (s := S64) S64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x64.size a ≤ S50000x64.size a
  hwx3_10 : ∀ i : grid3.Coords, EltTy.bits .f32 = 32 ∨ (Rect.block (s := S50000x64) S5000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S800000x32.size a
  hwx4_0 : ∀ i : grid4.Coords, EltTy.bits .f32 = 32 ∨ (Rect.block (s := S800000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x64.size a ≤ S800000x64.size a
  hwx4_4 : ∀ i : grid4.Coords, EltTy.bits .f32 = 32 ∨ (Rect.block (s := S800000x64) S8000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x96.size a ≤ S64x96.size a
  hwx5_2 : ∀ i : grid5.Coords, EltTy.bits .f32 = 32 ∨ (Rect.block (s := S64x96) S64x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S96.size a ≤ S96.size a
  hwx5_3 : ∀ i : grid5.Coords, EltTy.bits .f32 = 32 ∨ (Rect.block (s := S96) S96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S96x96.size a ≤ S96x96.size a
  hwx5_4 : ∀ i : grid5.Coords, EltTy.bits .f32 = 32 ∨ (Rect.block (s := S96x96) S96x96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S96.size a ≤ S96.size a
  hwx5_5 : ∀ i : grid5.Coords, EltTy.bits .f32 = 32 ∨ (Rect.block (s := S96) S96.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S96.size a ≤ S96.size a
  hwx5_6 : ∀ i : grid5.Coords, EltTy.bits .f32 = 32 ∨ (Rect.block (s := S96) S96.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S96.size a ≤ S96.size a
  hwx5_7 : ∀ i : grid5.Coords, EltTy.bits .f32 = 32 ∨ (Rect.block (s := S96) S96.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S96.size a ≤ S96.size a
  hwx5_8 : ∀ i : grid5.Coords, EltTy.bits .f32 = 32 ∨ (Rect.block (s := S96) S96.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S96.size a ≤ S96.size a
  hwx5_9 : ∀ i : grid5.Coords, EltTy.bits .f32 = 32 ∨ (Rect.block (s := S96) S96.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x96.size a ≤ S50000x96.size a
  hwx5_10 : ∀ i : grid5.Coords, EltTy.bits .f32 = 32 ∨ (Rect.block (s := S50000x96) S5000x96.size (cc5_transform_10 i) (hinb5_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg1) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg1) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg20) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg21) S64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v27) S5000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_arg1) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg22) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S8000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v27) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg24) S64x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg25) S96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg26) S96x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg27) S96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg28) S96.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg29) S96.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg30) S96.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg31) S96.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v39) S5000x96.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S64x96 : Shape := ⟨2, ![64, 96]⟩
abbrev S96 : Shape := ⟨1, ![96]⟩
abbrev S96x96 : Shape := ⟨2, ![96, 96]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S50000x64 : Shape := ⟨2, ![50000, 64]⟩
abbrev S1x64 : Shape := ⟨2, ![1, 64]⟩
abbrev S800000x64 : Shape := ⟨2, ![800000, 64]⟩
abbrev S50000x96 : Shape := ⟨2, ![50000, 96]⟩
abbrev S1x96 : Shape := ⟨2, ![1, 96]⟩
abbrev S50000x1 : Shape := ⟨2, ![50000, 1]⟩
abbrev S64x1 : Shape := ⟨2, ![64, 1]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S800000x32, .f32⟩
  | 2 => ⟨S32x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S32x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S32x64, .f32⟩
  | 23 => ⟨S64, .f32⟩
  | 24 => ⟨S64x96, .f32⟩
  | 25 => ⟨S96, .f32⟩
  | 26 => ⟨S96x96, .f32⟩
  | 27 => ⟨S96, .f32⟩
  | 28 => ⟨S96, .f32⟩
  | 29 => ⟨S96, .f32⟩
  | 30 => ⟨S96, .f32⟩
  | 31 => ⟨S96, .f32⟩
  | 32 => ⟨S2x800000, .i32⟩
  | 33 => ⟨S50000, .i32⟩
  | 34 => ⟨S1x800000, .i32⟩
  | 35 => ⟨S800000, .i32⟩
  | 36 => ⟨S1x800000, .i32⟩
  | 37 => ⟨S800000, .i32⟩
  | 38 => ⟨S800000x128, .f32⟩
  | 39 => ⟨S1x128, .f32⟩
  | 40 => ⟨S800000x128, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x128, .f32⟩
  | 52 => ⟨S_, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x128, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S64, .f32⟩
  | 77 => ⟨S64, .f32⟩
  | 78 => ⟨S64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S800000x64, .f32⟩
  | 89 => ⟨S1x64, .f32⟩
  | 90 => ⟨S800000x64, .f32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S64, .f32⟩
  | 126 => ⟨S64, .f32⟩
  | 127 => ⟨S64, .f32⟩
  | _ => ⟨S50000x128, .f32⟩

abbrev hbmTy0_1 (i : Nat) : BufTy := match i % 128 with
  | 0 => ⟨S64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S800000x64, .f32⟩
  | 11 => ⟨S1x64, .f32⟩
  | 12 => ⟨S800000x64, .f32⟩
  | 13 => ⟨S800000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S800000x64, .f32⟩
  | 24 => ⟨S_, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S50000x64, .f32⟩
  | 32 => ⟨S50000x96, .f32⟩
  | 33 => ⟨S1x96, .f32⟩
  | 34 => ⟨S50000x96, .f32⟩
  | 35 => ⟨S50000x96, .f32⟩
  | 36 => ⟨S_, .f32⟩
  | 37 => ⟨S50000x96, .f32⟩
  | 38 => ⟨S50000x96, .f32⟩
  | 39 => ⟨S50000x96, .f32⟩
  | 40 => ⟨S1x96, .f32⟩
  | 41 => ⟨S50000x96, .f32⟩
  | 42 => ⟨S50000x96, .f32⟩
  | 43 => ⟨S1x96, .f32⟩
  | 44 => ⟨S50000x96, .f32⟩
  | 45 => ⟨S50000x96, .f32⟩
  | 46 => ⟨S_, .f32⟩
  | 47 => ⟨S96, .f32⟩
  | 48 => ⟨S96, .f32⟩
  | 49 => ⟨S96, .f32⟩
  | 50 => ⟨S96, .f32⟩
  | 51 => ⟨S1x96, .f32⟩
  | 52 => ⟨S50000x96, .f32⟩
  | 53 => ⟨S50000x96, .f32⟩
  | 54 => ⟨S1x96, .f32⟩
  | 55 => ⟨S50000x96, .f32⟩
  | 56 => ⟨S50000x96, .f32⟩
  | 57 => ⟨S_, .f32⟩
  | 58 => ⟨S50000x96, .f32⟩
  | 59 => ⟨S50000x96, .f32⟩
  | 60 => ⟨S_, .f32⟩
  | 61 => ⟨S64x96, .f32⟩
  | 62 => ⟨S50000x1, .i32⟩
  | 63 => ⟨S64x96, .f32⟩
  | 64 => ⟨S_, .f32⟩
  | 65 => ⟨S50000, .f32⟩
  | 66 => ⟨S_, .f32⟩
  | 67 => ⟨S64, .f32⟩
  | 68 => ⟨S50000x1, .i32⟩
  | 69 => ⟨S64, .f32⟩
  | 70 => ⟨S_, .f32⟩
  | 71 => ⟨S64, .f32⟩
  | 72 => ⟨S64, .f32⟩
  | 73 => ⟨S64x1, .f32⟩
  | 74 => ⟨S64x96, .f32⟩
  | 75 => ⟨S64x96, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c : Ref sig .tc := ⟨.hbm, 42, rfl⟩
abbrev main_v8 : Ref sig .tc := ⟨.hbm, 43, rfl⟩
abbrev main_v9 : Ref sig .tc := ⟨.hbm, 44, rfl⟩
abbrev main_c_0 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call0_cst : Ref sig .tc := ⟨.hbm, 52, rfl⟩
abbrev main_call0_v0 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_1 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call2_cst : Ref sig .tc := ⟨.hbm, 85, rfl⟩
abbrev main_call2_v0 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_2 : Ref sig .tc := ⟨.hbm, 92, rfl⟩
abbrev main_v48 : Ref sig .tc := ⟨.hbm, 93, rfl⟩
abbrev main_v49 : Ref sig .tc := ⟨.hbm, 94, rfl⟩
abbrev main_c_3 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call3_cst : Ref sig .tc := ⟨.hbm, 102, rfl⟩
abbrev main_call3_v0 : Ref sig .tc := ⟨.hbm, 103, rfl⟩
abbrev main_v56 : Ref sig .tc := ⟨.hbm, 104, rfl⟩
abbrev main_cst_4 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call4_cst : Ref sig .tc := ⟨.hbm, 114, rfl⟩
abbrev main_call4_v0 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_5 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call5_cst : Ref sig .tc := ⟨.hbm, 135, rfl⟩
abbrev main_call5_v0 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_6 : Ref sig .tc := ⟨.hbm, 142, rfl⟩
abbrev main_v88 : Ref sig .tc := ⟨.hbm, 143, rfl⟩
abbrev main_v89 : Ref sig .tc := ⟨.hbm, 144, rfl⟩
abbrev main_c_7 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_call6_cst : Ref sig .tc := ⟨.hbm, 152, rfl⟩
abbrev main_call6_v0 : Ref sig .tc := ⟨.hbm, 153, rfl⟩
abbrev main_v96 : Ref sig .tc := ⟨.hbm, 154, rfl⟩
abbrev main_cst_8 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_call7_cst : Ref sig .tc := ⟨.hbm, 164, rfl⟩
abbrev main_call7_v0 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_9 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_call8_cst : Ref sig .tc := ⟨.hbm, 185, rfl⟩
abbrev main_call8_v0 : Ref sig .tc := ⟨.hbm, 186, rfl⟩
abbrev main_v123 : Ref sig .tc := ⟨.hbm, 187, rfl⟩
abbrev main_cst_10 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_11 : Ref sig .tc := ⟨.hbm, 192, rfl⟩
abbrev main_v127 : Ref sig .tc := ⟨.hbm, 193, rfl⟩
abbrev main_cst_12 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_13 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64 : S_.BroadcastsInDim S64 (![] : Fin 0 → Fin S64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S_S96 : S_.BroadcastsInDim S96 (![] : Fin 0 → Fin S96.rank)
  bcast_S_S64x96 : S_.BroadcastsInDim S64x96 (![] : Fin 0 → Fin S64x96.rank)
  bcast_S50000_S50000x1_0 : S50000.BroadcastsInDim S50000x1 (![0] : Fin 1 → Fin S50000x1.rank)
  bcast_S_S50000 : S_.BroadcastsInDim S50000 (![] : Fin 0 → Fin S50000.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x96_S50000x96_1_0_0_1_n_n_wf : DotDims.WF S50000x64 S64x96 S50000x96 [1] [0] [0] [1] [] []
  dot_S50000x96_S96x96_S50000x96_1_0_0_1_n_n_wf : DotDims.WF S50000x96 S96x96 S50000x96 [1] [0] [0] [1] [] []
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.LibRunBoth.lean ====
/-
  Two facts about every final state hold together.  A run claim says: every weakly fair execution of the program from
  the given state terminates, nothing faulting, in a state satisfying the post.  Termination and freedom from faults
  do not mention the post, and the post is asked of every final state reached; so from the claim at a post Q and the
  claim at a post Q' follows the claim at their conjunction.  For any mesh, signature, element values and program.
-/
import Idealize.ShloMosaic.Machine.Run

namespace Cert.LibRunBoth

open Idealize.ShloMosaic Idealize.SL.Sem

variable {nD : Nat} {τ : Topo} {sig : RefSig} {Val : EltTy → Type} {Λ : Labels}

/-- Every execution ends in a state satisfying both posts. -/
theorem meshRun_both (defs : Defs nD τ sig Val Λ) {Q Q' : MemSt nD τ sig Val → Prop} {s : RunSt nD τ sig Val Λ}
    (h : MeshRun defs Q s) (h' : MeshRun defs Q' s) : MeshRun defs (fun m => Q m ∧ Q' m) s :=
  ⟨fun t hr hf => ⟨h.post t hr hf, h'.post t hr hf⟩, h.progress, h.fair⟩

/-- The same for the run claim of a loaded program: both posts hold of every final state. -/
theorem run_both (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) :=
  meshRun_both defs h h'

end Cert.LibRunBoth
-- ==== Proof.KernelRun.lean ====
/-
  The idealized program's run with its result named.  Every weakly fair execution of @main from the launch memory
  terminates, nothing faulting; in the final state every buffer that outlives a kernel call holds what the fold of
  @main's thirteen segments leaves in it: a host stretch applies its operations, a kernel call replaces its output
  array by what its grid points wrote back and leaves everything else.  Here that fold is read at the result buffer.
-/
import proofs.«179759_j61555471286658_1_alg».proof.Proof.PatchedKernelIdealFrame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: on every core the result buffer ends at the last boundary's contents. -/
theorem run : θ_run defs (onTc (τ := τ) (main (F := F))) ⟨m, fun _ => 0, ρ⟩ (fun r => ∀ c : Dev nD,
      r.2.mem ((c.tc : Thread nD τ).loc main_v51) = W13 m ρ c (Proc.devRef .tc main_v51)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c _ (mem_uc main_v51 (by decide)))

end Cert.KernelIdeal.RunValue

end
-- ==== Proof.Keeps.lean ====
/-
  What a segment of @main leaves alone.  A host stretch changes only the buffers its operations write; a kernel call
  changes only its output array (its input arrays are read through windows that never write back, and every other
  buffer is not its to touch).  So a buffer outside a segment's written set holds after the segment what it held
  before it: stated once per segment, for any buffer.
-/
import proofs.«179759_j61555471286658_1_alg».proof.Proof.PatchedKernelIdealFrame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers host stretch 0 writes. -/
abbrev wr0 : List (Ref sig .tc) := [main_v0, main_v1, main_v2, main_v3, main_c, main_v4, main_v5, main_c_0, main_v6, main_v7, main_v8, main_v9, main_v10]
theorem host0 (r : Ref sig .tc) (hr : r ∉ wr0) :
    W1 m ρ c (Proc.devRef .tc r) = W0 m ρ c (Proc.devRef .tc r) :=
  StableHlo.after_of_writes_sub hostOps0 _ (by
    simp only [hostOps0, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 1 writes. -/
abbrev wr1 : List (Ref sig .tc) := [main_cst, main_v12, main_v13, main_v14]
theorem host1 (r : Ref sig .tc) (hr : r ∉ wr1) :
    W3 m ρ c (Proc.devRef .tc r) = W2 m ρ c (Proc.devRef .tc r) :=
  StableHlo.after_of_writes_sub hostOps1 _ (by
    simp only [hostOps1, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 2 writes. -/
abbrev wr2 : List (Ref sig .tc) := [main_c_1, main_v16, main_v17, main_c_2, main_v18, main_v19, main_v20, main_v21, main_v22]
theorem host2 (r : Ref sig .tc) (hr : r ∉ wr2) :
    W5 m ρ c (Proc.devRef .tc r) = W4 m ρ c (Proc.devRef .tc r) :=
  StableHlo.after_of_writes_sub hostOps2 _ (by
    simp only [hostOps2, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 3 writes. -/
abbrev wr3 : List (Ref sig .tc) := [main_cst_3, main_v24, main_v25, main_v26]
theorem host3 (r : Ref sig .tc) (hr : r ∉ wr3) :
    W7 m ρ c (Proc.devRef .tc r) = W6 m ρ c (Proc.devRef .tc r) :=
  StableHlo.after_of_writes_sub hostOps3 _ (by
    simp only [hostOps3, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 4 writes. -/
abbrev wr4 : List (Ref sig .tc) := [main_c_4, main_v28, main_v29, main_c_5, main_v30, main_v31, main_v32, main_v33, main_v34]
theorem host4 (r : Ref sig .tc) (hr : r ∉ wr4) :
    W9 m ρ c (Proc.devRef .tc r) = W8 m ρ c (Proc.devRef .tc r) :=
  StableHlo.after_of_writes_sub hostOps4 _ (by
    simp only [hostOps4, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 5 writes. -/
abbrev wr5 : List (Ref sig .tc) := [main_cst_6, main_v36, main_v37, main_v38]
theorem host5 (r : Ref sig .tc) (hr : r ∉ wr5) :
    W11 m ρ c (Proc.devRef .tc r) = W10 m ρ c (Proc.devRef .tc r) :=
  StableHlo.after_of_writes_sub hostOps5 _ (by
    simp only [hostOps5, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

/-- The buffers host stretch 6 writes. -/
abbrev wr6 : List (Ref sig .tc) := [main_cst_7, main_v40, main_v41, main_v42, main_cst_8, main_v43, main_cst_9, main_v44, main_v45, main_v46, main_cst_10, main_v47, main_v48, main_v49, main_v50, main_v51]
theorem host6 (r : Ref sig .tc) (hr : r ∉ wr6) :
    W13 m ρ c (Proc.devRef .tc r) = W12 m ρ c (Proc.devRef .tc r) :=
  StableHlo.after_of_writes_sub hostOps6 _ (by
    simp only [hostOps6, List.Forall, StableHlo.nullary_writes, StableHlo.unary_writes, StableHlo.binary_writes,
      StableHlo.ternary_writes, StableHlo.reshape_writes, List.map_cons, List.map_nil, List.toFinset_cons,
      List.toFinset_nil, Finset.singleton_subset_iff, Finset.mem_insert, Finset.mem_singleton, true_or, or_true,
      and_self]) hr

set_option maxHeartbeats 4000000 in
/-- Kernel call 0 changes only its output array main_v11. -/
theorem call0 (r : Ref sig .tc) (hr : r ≠ main_v11) :
    W2 m ρ c (Proc.devRef .tc r) = W1 m ρ c (Proc.devRef .tc r) := by
  by_cases h : ∃ w, Pipeline.arrRef spec0 w = r
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact absurd rfl hr
  · exact W2_of_ne m ρ c r fun w e => h ⟨w, e⟩

set_option maxHeartbeats 4000000 in
/-- Kernel call 1 changes only its output array main_v15. -/
theorem call1 (r : Ref sig .tc) (hr : r ≠ main_v15) :
    W4 m ρ c (Proc.devRef .tc r) = W3 m ρ c (Proc.devRef .tc r) := by
  by_cases h : ∃ w, Pipeline.arrRef spec1 w = r
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact (W4_arr m ρ c 5).trans (((dat1 (V3 m ρ) c).arrAt_in 5 rfl _).trans (A_eq1 (V3 m ρ) c 5))
    | ⟨6, _⟩ => exact (W4_arr m ρ c 6).trans (((dat1 (V3 m ρ) c).arrAt_in 6 rfl _).trans (A_eq1 (V3 m ρ) c 6))
    | ⟨7, _⟩ => exact (W4_arr m ρ c 7).trans (((dat1 (V3 m ρ) c).arrAt_in 7 rfl _).trans (A_eq1 (V3 m ρ) c 7))
    | ⟨8, _⟩ => exact (W4_arr m ρ c 8).trans (((dat1 (V3 m ρ) c).arrAt_in 8 rfl _).trans (A_eq1 (V3 m ρ) c 8))
    | ⟨9, _⟩ => exact (W4_arr m ρ c 9).trans (((dat1 (V3 m ρ) c).arrAt_in 9 rfl _).trans (A_eq1 (V3 m ρ) c 9))
    | ⟨10, _⟩ => exact absurd rfl hr
  · exact W4_of_ne m ρ c r fun w e => h ⟨w, e⟩

set_option maxHeartbeats 4000000 in
/-- Kernel call 2 changes only its output array main_v23. -/
theorem call2 (r : Ref sig .tc) (hr : r ≠ main_v23) :
    W6 m ρ c (Proc.devRef .tc r) = W5 m ρ c (Proc.devRef .tc r) := by
  by_cases h : ∃ w, Pipeline.arrRef spec2 w = r
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact absurd rfl hr
  · exact W6_of_ne m ρ c r fun w e => h ⟨w, e⟩

set_option maxHeartbeats 4000000 in
/-- Kernel call 3 changes only its output array main_v27. -/
theorem call3 (r : Ref sig .tc) (hr : r ≠ main_v27) :
    W8 m ρ c (Proc.devRef .tc r) = W7 m ρ c (Proc.devRef .tc r) := by
  by_cases h : ∃ w, Pipeline.arrRef spec3 w = r
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact (W8_arr m ρ c 4).trans (((dat3 (V7 m ρ) c).arrAt_in 4 rfl _).trans (A_eq3 (V7 m ρ) c 4))
    | ⟨5, _⟩ => exact (W8_arr m ρ c 5).trans (((dat3 (V7 m ρ) c).arrAt_in 5 rfl _).trans (A_eq3 (V7 m ρ) c 5))
    | ⟨6, _⟩ => exact (W8_arr m ρ c 6).trans (((dat3 (V7 m ρ) c).arrAt_in 6 rfl _).trans (A_eq3 (V7 m ρ) c 6))
    | ⟨7, _⟩ => exact (W8_arr m ρ c 7).trans (((dat3 (V7 m ρ) c).arrAt_in 7 rfl _).trans (A_eq3 (V7 m ρ) c 7))
    | ⟨8, _⟩ => exact (W8_arr m ρ c 8).trans (((dat3 (V7 m ρ) c).arrAt_in 8 rfl _).trans (A_eq3 (V7 m ρ) c 8))
    | ⟨9, _⟩ => exact (W8_arr m ρ c 9).trans (((dat3 (V7 m ρ) c).arrAt_in 9 rfl _).trans (A_eq3 (V7 m ρ) c 9))
    | ⟨10, _⟩ => exact absurd rfl hr
  · exact W8_of_ne m ρ c r fun w e => h ⟨w, e⟩

set_option maxHeartbeats 4000000 in
/-- Kernel call 4 changes only its output array main_v35. -/
theorem call4 (r : Ref sig .tc) (hr : r ≠ main_v35) :
    W10 m ρ c (Proc.devRef .tc r) = W9 m ρ c (Proc.devRef .tc r) := by
  by_cases h : ∃ w, Pipeline.arrRef spec4 w = r
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact absurd rfl hr
  · exact W10_of_ne m ρ c r fun w e => h ⟨w, e⟩

set_option maxHeartbeats 4000000 in
/-- Kernel call 5 changes only its output array main_v39. -/
theorem call5 (r : Ref sig .tc) (hr : r ≠ main_v39) :
    W12 m ρ c (Proc.devRef .tc r) = W11 m ρ c (Proc.devRef .tc r) := by
  by_cases h : ∃ w, Pipeline.arrRef spec5 w = r
  · obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (W12_arr m ρ c 3).trans (((dat5 (V11 m ρ) c).arrAt_in 3 rfl _).trans (A_eq5 (V11 m ρ) c 3))
    | ⟨4, _⟩ => exact (W12_arr m ρ c 4).trans (((dat5 (V11 m ρ) c).arrAt_in 4 rfl _).trans (A_eq5 (V11 m ρ) c 4))
    | ⟨5, _⟩ => exact (W12_arr m ρ c 5).trans (((dat5 (V11 m ρ) c).arrAt_in 5 rfl _).trans (A_eq5 (V11 m ρ) c 5))
    | ⟨6, _⟩ => exact (W12_arr m ρ c 6).trans (((dat5 (V11 m ρ) c).arrAt_in 6 rfl _).trans (A_eq5 (V11 m ρ) c 6))
    | ⟨7, _⟩ => exact (W12_arr m ρ c 7).trans (((dat5 (V11 m ρ) c).arrAt_in 7 rfl _).trans (A_eq5 (V11 m ρ) c 7))
    | ⟨8, _⟩ => exact (W12_arr m ρ c 8).trans (((dat5 (V11 m ρ) c).arrAt_in 8 rfl _).trans (A_eq5 (V11 m ρ) c 8))
    | ⟨9, _⟩ => exact (W12_arr m ρ c 9).trans (((dat5 (V11 m ρ) c).arrAt_in 9 rfl _).trans (A_eq5 (V11 m ρ) c 9))
    | ⟨10, _⟩ => exact absurd rfl hr
  · exact W12_of_ne m ρ c r fun w e => h ⟨w, e⟩

/-- Everything written before boundary 0: nothing. -/
abbrev cum0 : List (Ref sig .tc) := []

theorem upto0 (r : Ref sig .tc) (hr : r ∉ cum0) : W0 m ρ c (Proc.devRef .tc r) = W0 m ρ c (Proc.devRef .tc r) := rfl

/-- Everything written before boundary 1. -/
abbrev cum1 : List (Ref sig .tc) := cum0 ++ wr0
theorem upto1 (r : Ref sig .tc) (hr : r ∉ cum1) : W1 m ρ c (Proc.devRef .tc r) = W0 m ρ c (Proc.devRef .tc r) :=
  (host0 m ρ c r fun h => hr (List.mem_append_right _ h)).trans (upto0 m ρ c r fun h => hr (List.mem_append_left _ h))

/-- Everything written before boundary 2. -/
abbrev cum2 : List (Ref sig .tc) := cum1 ++ [main_v11]
theorem upto2 (r : Ref sig .tc) (hr : r ∉ cum2) : W2 m ρ c (Proc.devRef .tc r) = W0 m ρ c (Proc.devRef .tc r) :=
  (call0 m ρ c r fun h => hr (List.mem_append_right _ (h ▸ List.mem_singleton_self _))).trans
    (upto1 m ρ c r fun h => hr (List.mem_append_left _ h))

/-- Everything written before boundary 3. -/
abbrev cum3 : List (Ref sig .tc) := cum2 ++ wr1
theorem upto3 (r : Ref sig .tc) (hr : r ∉ cum3) : W3 m ρ c (Proc.devRef .tc r) = W0 m ρ c (Proc.devRef .tc r) :=
  (host1 m ρ c r fun h => hr (List.mem_append_right _ h)).trans (upto2 m ρ c r fun h => hr (List.mem_append_left _ h))

/-- Everything written before boundary 4. -/
abbrev cum4 : List (Ref sig .tc) := cum3 ++ [main_v15]
theorem upto4 (r : Ref sig .tc) (hr : r ∉ cum4) : W4 m ρ c (Proc.devRef .tc r) = W0 m ρ c (Proc.devRef .tc r) :=
  (call1 m ρ c r fun h => hr (List.mem_append_right _ (h ▸ List.mem_singleton_self _))).trans
    (upto3 m ρ c r fun h => hr (List.mem_append_left _ h))

/-- Everything written before boundary 5. -/
abbrev cum5 : List (Ref sig .tc) := cum4 ++ wr2
theorem upto5 (r : Ref sig .tc) (hr : r ∉ cum5) : W5 m ρ c (Proc.devRef .tc r) = W0 m ρ c (Proc.devRef .tc r) :=
  (host2 m ρ c r fun h => hr (List.mem_append_right _ h)).trans (upto4 m ρ c r fun h => hr (List.mem_append_left _ h))

/-- Everything written before boundary 6. -/
abbrev cum6 : List (Ref sig .tc) := cum5 ++ [main_v23]
theorem upto6 (r : Ref sig .tc) (hr : r ∉ cum6) : W6 m ρ c (Proc.devRef .tc r) = W0 m ρ c (Proc.devRef .tc r) :=
  (call2 m ρ c r fun h => hr (List.mem_append_right _ (h ▸ List.mem_singleton_self _))).trans
    (upto5 m ρ c r fun h => hr (List.mem_append_left _ h))

/-- Everything written before boundary 7. -/
abbrev cum7 : List (Ref sig .tc) := cum6 ++ wr3
theorem upto7 (r : Ref sig .tc) (hr : r ∉ cum7) : W7 m ρ c (Proc.devRef .tc r) = W0 m ρ c (Proc.devRef .tc r) :=
  (host3 m ρ c r fun h => hr (List.mem_append_right _ h)).trans (upto6 m ρ c r fun h => hr (List.mem_append_left _ h))

/-- Everything written before boundary 8. -/
abbrev cum8 : List (Ref sig .tc) := cum7 ++ [main_v27]
theorem upto8 (r : Ref sig .tc) (hr : r ∉ cum8) : W8 m ρ c (Proc.devRef .tc r) = W0 m ρ c (Proc.devRef .tc r) :=
  (call3 m ρ c r fun h => hr (List.mem_append_right _ (h ▸ List.mem_singleton_self _))).trans
    (upto7 m ρ c r fun h => hr (List.mem_append_left _ h))

/-- Everything written before boundary 9. -/
abbrev cum9 : List (Ref sig .tc) := cum8 ++ wr4
theorem upto9 (r : Ref sig .tc) (hr : r ∉ cum9) : W9 m ρ c (Proc.devRef .tc r) = W0 m ρ c (Proc.devRef .tc r) :=
  (host4 m ρ c r fun h => hr (List.mem_append_right _ h)).trans (upto8 m ρ c r fun h => hr (List.mem_append_left _ h))

/-- Everything written before boundary 10. -/
abbrev cum10 : List (Ref sig .tc) := cum9 ++ [main_v35]
theorem upto10 (r : Ref sig .tc) (hr : r ∉ cum10) : W10 m ρ c (Proc.devRef .tc r) = W0 m ρ c (Proc.devRef .tc r) :=
  (call4 m ρ c r fun h => hr (List.mem_append_right _ (h ▸ List.mem_singleton_self _))).trans
    (upto9 m ρ c r fun h => hr (List.mem_append_left _ h))

/-- Everything written before boundary 11. -/
abbrev cum11 : List (Ref sig .tc) := cum10 ++ wr5
theorem upto11 (r : Ref sig .tc) (hr : r ∉ cum11) : W11 m ρ c (Proc.devRef .tc r) = W0 m ρ c (Proc.devRef .tc r) :=
  (host5 m ρ c r fun h => hr (List.mem_append_right _ h)).trans (upto10 m ρ c r fun h => hr (List.mem_append_left _ h))

/-- Everything written before boundary 12. -/
abbrev cum12 : List (Ref sig .tc) := cum11 ++ [main_v39]
theorem upto12 (r : Ref sig .tc) (hr : r ∉ cum12) : W12 m ρ c (Proc.devRef .tc r) = W0 m ρ c (Proc.devRef .tc r) :=
  (call5 m ρ c r fun h => hr (List.mem_append_right _ (h ▸ List.mem_singleton_self _))).trans
    (upto11 m ρ c r fun h => hr (List.mem_append_left _ h))

/-- Everything written before boundary 13. -/
abbrev cum13 : List (Ref sig .tc) := cum12 ++ wr6
theorem upto13 (r : Ref sig .tc) (hr : r ∉ cum13) : W13 m ρ c (Proc.devRef .tc r) = W0 m ρ c (Proc.devRef .tc r) :=
  (host6 m ρ c r fun h => hr (List.mem_append_right _ h)).trans (upto12 m ρ c r fun h => hr (List.mem_append_left _ h))

end Cert.KernelIdeal.Keep

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«179759_j61555471286658_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«179759_j61555471286658_1_alg».proof.Proof.LibMatmulPlain
import proofs.«179759_j61555471286658_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibGineLayer.lean ====
/-
  The two fused stages of one graph-isomorphism convolution with edge features (GINE), on the extended reals, for any
  extents, and the spellings that denote them.

  Edge stage.  For gathered source rows xs [e, d], edge features ea [e, k], a weight w [k, d] and a bias b [d]:
      edgeMsg xs ea w b (p, q) = max (xs(p, q) + (sum_j ea(p, j) * w(j, q) + b(q))) 0.
  Node stage.  For node rows x [n, k], aggregated messages agg [n, k], a two-layer perceptron (w1 [k, o], b1, w2 [o, o], b2)
  and the statistics of an inference-time batch normalisation (gain g, offset bb, mean mu, variance var, all [o]):
      nodeUpd … (p, q) = max ((y(p, q) - mu(q)) * (g(q) * (var(q) + eps)^(-1/2)) + bb(q)) 0,
      y = max ((x + agg) · w1 + b1) 0 · w2 + b2,
  with eps the value of the f32 word 0x3727C5AC.
  Both stages are written once as a vector program over one block of rows (a product on the matrix unit into a zero
  accumulator; a vector laid out as one row and repeated down the rows; a maximum with a repeated zero) and once as a
  host program over whole arrays (a general product; two broadcasts; a maximum with a broadcast constant); each of these
  spellings is the stage's formula (the node stage's vector program has two: with the node rows loaded as they are, or
  passed through a change of shape that changes nothing, as the aggregated messages always are).  Row p of either stage's result depends on row p of its row-indexed operands
  only, so a block of rows of the result is the stage applied to that block of rows.  No law of arithmetic is used:
  the two spellings are the same operations in the same order.
-/
import Idealize.ShloMosaic.Lib.ValueLayout
import Idealize.ShloMosaic.Lib.Pipeline.Value
import Idealize.ShloMosaic.PureOps.Ideal.Laws
import proofs.«179759_j61555471286658_1_alg».proof.Proof.LibDenseLayers

noncomputable section

namespace Cert.Gine

open Idealize.ShloMosaic Idealize.ShloMosaic.ValueIdx Cert.LibMatmulPlain Cert.LibAffineRows Cert.Layers

variable {e e' k d n n' o : Nat}

/-- The message of every edge: the gathered source row plus the edge's own affine image, rectified. -/
def edgeMsg (xs : Mat e d) (ea : Mat e k) (w : Mat k d) (b : Row d) : Mat e d :=
  rect fun i => xs i + dense ea w b i

/-- The per-column factor of an inference-time batch normalisation: gain times (variance + eps)^(-1/2). -/
def normScale (g var : Row o) : Row o :=
  fun j => g j * Ideal.rsqrt (var j + Ideal.ofBits .f32 0x3727C5AC#32)

/-- The update of every node: a two-layer perceptron of the node's row plus its aggregated messages, normalised
    column by column, rectified. -/
def nodeUpd (x agg : Mat n k) (w1 : Mat k o) (b1 : Row o) (w2 : Mat o o) (b2 g bb mu var : Row o) : Mat n o :=
  rect fun i => (dense (rect (dense (fun j => x j + agg j) w1 b1)) w2 b2 i - bias n mu i) * bias n (normScale g var) i
    + bias n bb i

/-! ## A product on the matrix unit with no change of format -/

/-- A product on the matrix unit into a zero accumulator. -/
theorem tileMmPlain_eq {m : Nat} (dd : DotDims ⟨2, ![m, k]⟩ ⟨2, ![k, d]⟩ ⟨2, ![m, d]⟩)
    (wf : DotDims.WF ⟨2, ![m, k]⟩ ⟨2, ![k, d]⟩ ⟨2, ![m, d]⟩ [1] [0] [0] [1] [] []) (hd : dd = plainDims m k d wf)
    (a : FVec Ideal ⟨2, ![m, k]⟩ .f32) (w : FVec Ideal ⟨2, ![k, d]⟩ .f32) :
    matmul dd none a w (constant ⟨2, ![m, d]⟩ .f32 0x00000000#32) = mm a w := by
  subst hd
  funext i
  obtain ⟨p, q, rfl⟩ : ∃ (p : Fin m) (q : Fin d), i = ix2 p q := ⟨i 0, i 1, eq_ix2 i⟩
  exact matmul_zero_apply wf none a w p q

/-! ## The edge stage's two spellings -/

/-- The vector program over a block of e edges. -/
theorem tileEdge_eq (dd : DotDims ⟨2, ![e, k]⟩ ⟨2, ![k, d]⟩ ⟨2, ![e, d]⟩)
    (wf : DotDims.WF ⟨2, ![e, k]⟩ ⟨2, ![k, d]⟩ ⟨2, ![e, d]⟩ [1] [0] [0] [1] [] []) (hd : dd = plainDims e k d wf)
    (ea : FVec Ideal ⟨2, ![e, k]⟩ .f32) (w : FVec Ideal ⟨2, ![k, d]⟩ .f32) (b : FVec Ideal ⟨1, ![d]⟩ .f32)
    (xs : FVec Ideal ⟨2, ![e, d]⟩ .f32)
    (hs : (⟨2, ![e, d]⟩ : Shape).ShapeCasts ⟨2, ![e, d]⟩) (hc : (⟨1, ![d]⟩ : Shape).ShapeCasts ⟨2, ![1, d]⟩)
    (hb : (⟨2, ![1, d]⟩ : Shape).Broadcasts ⟨2, ![e, d]⟩) :
    maximumf (addf (shapeCast ⟨2, ![e, d]⟩ xs hs)
        (addf (matmul dd none ea w (constant ⟨2, ![e, d]⟩ .f32 0x00000000#32))
          (broadcastTo ⟨2, ![e, d]⟩ (shapeCast ⟨2, ![1, d]⟩ b hc) hb)))
      (broadcast ⟨2, ![e, d]⟩ (Scalar.ofBits (F := Ideal) .f32 0x00000000#32)) = edgeMsg xs ea w b := by
  rw [tileRect_eq, shapeCast_self, tileMmPlain_eq dd wf hd, tileBias_eq]
  rfl

/-- The host program over all e edges. -/
theorem hostEdge_eq (dd : DotDims ⟨2, ![e, k]⟩ ⟨2, ![k, d]⟩ ⟨2, ![e, d]⟩)
    (wf : DotDims.WF ⟨2, ![e, k]⟩ ⟨2, ![k, d]⟩ ⟨2, ![e, d]⟩ [1] [0] [0] [1] [] []) (hd : dd = plainDims e k d wf)
    (ea : FVec Ideal ⟨2, ![e, k]⟩ .f32) (w : FVec Ideal ⟨2, ![k, d]⟩ .f32) (b : FVec Ideal ⟨1, ![d]⟩ .f32)
    (xs : FVec Ideal ⟨2, ![e, d]⟩ .f32)
    (h1 : (⟨1, ![d]⟩ : Shape).BroadcastsInDim ⟨2, ![1, d]⟩ ![1])
    (h2 : (⟨2, ![1, d]⟩ : Shape).BroadcastsInDim ⟨2, ![e, d]⟩ ![0, 1])
    (h0 : (⟨0, ![]⟩ : Shape).BroadcastsInDim ⟨2, ![e, d]⟩ ![]) :
    maximumf (addf xs (addf (Host.dotGeneral dd none ea w)
        (broadcastInDim ⟨2, ![e, d]⟩ ![0, 1] h2 (broadcastInDim ⟨2, ![1, d]⟩ ![1] h1 b))))
      (broadcastInDim ⟨2, ![e, d]⟩ ![] h0 (constant (F := Ideal) ⟨0, ![]⟩ .f32 0x00000000#32)) = edgeMsg xs ea w b := by
  rw [hostRect_eq, hostMm_eq dd wf hd, hostBias_eq]
  rfl

/-- Row r of the edge stage over a block of rows is row p of the stage over the whole arrays, when the block's row r
    is the arrays' row p. -/
theorem edgeMsg_row (xs : Mat e d) (ea : Mat e k) (xs' : Mat e' d) (ea' : Mat e' k) (w : Mat k d) (b : Row d)
    (p : Fin e) (r : Fin e') (hx : ∀ j : Fin d, xs' (ix2 r j) = xs (ix2 p j))
    (ha : ∀ j : Fin k, ea' (ix2 r j) = ea (ix2 p j)) (q : Fin d) :
    edgeMsg xs' ea' w b (ix2 r q) = edgeMsg xs ea w b (ix2 p q) := by
  show max (xs' (ix2 r q) + (mm ea' w (ix2 r q) + b (ix1 q))) _ = max (xs (ix2 p q) + (mm ea w (ix2 p q) + b (ix1 q))) _
  rw [mm_apply, mm_apply, hx q]
  simp only [ha]

/-! ## The node stage's two spellings -/

/-- The vector program over a block of n nodes. -/
theorem tileNode_eq (d1 : DotDims ⟨2, ![n, k]⟩ ⟨2, ![k, o]⟩ ⟨2, ![n, o]⟩)
    (wf1 : DotDims.WF ⟨2, ![n, k]⟩ ⟨2, ![k, o]⟩ ⟨2, ![n, o]⟩ [1] [0] [0] [1] [] []) (hd1 : d1 = plainDims n k o wf1)
    (d2 : DotDims ⟨2, ![n, o]⟩ ⟨2, ![o, o]⟩ ⟨2, ![n, o]⟩)
    (wf2 : DotDims.WF ⟨2, ![n, o]⟩ ⟨2, ![o, o]⟩ ⟨2, ![n, o]⟩ [1] [0] [0] [1] [] []) (hd2 : d2 = plainDims n o o wf2)
    (x agg : FVec Ideal ⟨2, ![n, k]⟩ .f32) (w1 : FVec Ideal ⟨2, ![k, o]⟩ .f32) (b1 : FVec Ideal ⟨1, ![o]⟩ .f32)
    (w2 : FVec Ideal ⟨2, ![o, o]⟩ .f32) (b2 g bb mu var : FVec Ideal ⟨1, ![o]⟩ .f32)
    (hs : (⟨2, ![n, k]⟩ : Shape).ShapeCasts ⟨2, ![n, k]⟩) (hc : (⟨1, ![o]⟩ : Shape).ShapeCasts ⟨2, ![1, o]⟩)
    (hb : (⟨2, ![1, o]⟩ : Shape).Broadcasts ⟨2, ![n, o]⟩) :
    maximumf (addf (mulf (subf (addf (matmul d2 none
        (maximumf (addf (matmul d1 none (addf x (shapeCast ⟨2, ![n, k]⟩ agg hs)) w1
              (constant ⟨2, ![n, o]⟩ .f32 0x00000000#32))
            (broadcastTo ⟨2, ![n, o]⟩ (shapeCast ⟨2, ![1, o]⟩ b1 hc) hb))
          (broadcast ⟨2, ![n, o]⟩ (Scalar.ofBits (F := Ideal) .f32 0x00000000#32)))
        w2 (constant ⟨2, ![n, o]⟩ .f32 0x00000000#32))
          (broadcastTo ⟨2, ![n, o]⟩ (shapeCast ⟨2, ![1, o]⟩ b2 hc) hb))
          (broadcastTo ⟨2, ![n, o]⟩ (shapeCast ⟨2, ![1, o]⟩ mu hc) hb))
          (broadcastTo ⟨2, ![n, o]⟩ (shapeCast ⟨2, ![1, o]⟩
            (mulf g (rsqrt (addf var (broadcast ⟨1, ![o]⟩ (Scalar.ofBits (F := Ideal) .f32 0x3727C5AC#32))))) hc) hb))
          (broadcastTo ⟨2, ![n, o]⟩ (shapeCast ⟨2, ![1, o]⟩ bb hc) hb))
      (broadcast ⟨2, ![n, o]⟩ (Scalar.ofBits (F := Ideal) .f32 0x00000000#32))
      = nodeUpd x agg w1 b1 w2 b2 g bb mu var := by
  rw [shapeCast_self, tileMmPlain_eq d1 wf1 hd1, tileMmPlain_eq d2 wf2 hd2]
  simp only [tileBias_eq]
  rfl

/-- The vector program when the node rows and the aggregated messages have one shape: both loads pass through a
    change of shape that changes nothing before they are added. -/
theorem tileNodeCast_eq (d1 : DotDims ⟨2, ![n, k]⟩ ⟨2, ![k, o]⟩ ⟨2, ![n, o]⟩)
    (wf1 : DotDims.WF ⟨2, ![n, k]⟩ ⟨2, ![k, o]⟩ ⟨2, ![n, o]⟩ [1] [0] [0] [1] [] []) (hd1 : d1 = plainDims n k o wf1)
    (d2 : DotDims ⟨2, ![n, o]⟩ ⟨2, ![o, o]⟩ ⟨2, ![n, o]⟩)
    (wf2 : DotDims.WF ⟨2, ![n, o]⟩ ⟨2, ![o, o]⟩ ⟨2, ![n, o]⟩ [1] [0] [0] [1] [] []) (hd2 : d2 = plainDims n o o wf2)
    (x agg : FVec Ideal ⟨2, ![n, k]⟩ .f32) (w1 : FVec Ideal ⟨2, ![k, o]⟩ .f32) (b1 : FVec Ideal ⟨1, ![o]⟩ .f32)
    (w2 : FVec Ideal ⟨2, ![o, o]⟩ .f32) (b2 g bb mu var : FVec Ideal ⟨1, ![o]⟩ .f32)
    (hs : (⟨2, ![n, k]⟩ : Shape).ShapeCasts ⟨2, ![n, k]⟩) (hc : (⟨1, ![o]⟩ : Shape).ShapeCasts ⟨2, ![1, o]⟩)
    (hb : (⟨2, ![1, o]⟩ : Shape).Broadcasts ⟨2, ![n, o]⟩) :
    maximumf (addf (mulf (subf (addf (matmul d2 none
        (maximumf (addf (matmul d1 none (addf (shapeCast ⟨2, ![n, k]⟩ x hs) (shapeCast ⟨2, ![n, k]⟩ agg hs)) w1
              (constant ⟨2, ![n, o]⟩ .f32 0x00000000#32))
            (broadcastTo ⟨2, ![n, o]⟩ (shapeCast ⟨2, ![1, o]⟩ b1 hc) hb))
          (broadcast ⟨2, ![n, o]⟩ (Scalar.ofBits (F := Ideal) .f32 0x00000000#32)))
        w2 (constant ⟨2, ![n, o]⟩ .f32 0x00000000#32))
          (broadcastTo ⟨2, ![n, o]⟩ (shapeCast ⟨2, ![1, o]⟩ b2 hc) hb))
          (broadcastTo ⟨2, ![n, o]⟩ (shapeCast ⟨2, ![1, o]⟩ mu hc) hb))
          (broadcastTo ⟨2, ![n, o]⟩ (shapeCast ⟨2, ![1, o]⟩
            (mulf g (rsqrt (addf var (broadcast ⟨1, ![o]⟩ (Scalar.ofBits (F := Ideal) .f32 0x3727C5AC#32))))) hc) hb))
          (broadcastTo ⟨2, ![n, o]⟩ (shapeCast ⟨2, ![1, o]⟩ bb hc) hb))
      (broadcast ⟨2, ![n, o]⟩ (Scalar.ofBits (F := Ideal) .f32 0x00000000#32))
      = nodeUpd x agg w1 b1 w2 b2 g bb mu var := by
  rw [shapeCast_self x hs]
  exact tileNode_eq d1 wf1 hd1 d2 wf2 hd2 x agg w1 b1 w2 b2 g bb mu var hs hc hb

/-- The host program over all n nodes. -/
theorem hostNode_eq (d1 : DotDims ⟨2, ![n, k]⟩ ⟨2, ![k, o]⟩ ⟨2, ![n, o]⟩)
    (wf1 : DotDims.WF ⟨2, ![n, k]⟩ ⟨2, ![k, o]⟩ ⟨2, ![n, o]⟩ [1] [0] [0] [1] [] []) (hd1 : d1 = plainDims n k o wf1)
    (d2 : DotDims ⟨2, ![n, o]⟩ ⟨2, ![o, o]⟩ ⟨2, ![n, o]⟩)
    (wf2 : DotDims.WF ⟨2, ![n, o]⟩ ⟨2, ![o, o]⟩ ⟨2, ![n, o]⟩ [1] [0] [0] [1] [] []) (hd2 : d2 = plainDims n o o wf2)
    (x agg : FVec Ideal ⟨2, ![n, k]⟩ .f32) (w1 : FVec Ideal ⟨2, ![k, o]⟩ .f32) (b1 : FVec Ideal ⟨1, ![o]⟩ .f32)
    (w2 : FVec Ideal ⟨2, ![o, o]⟩ .f32) (b2 g bb mu var : FVec Ideal ⟨1, ![o]⟩ .f32)
    (h1 : (⟨1, ![o]⟩ : Shape).BroadcastsInDim ⟨2, ![1, o]⟩ ![1])
    (h2 : (⟨2, ![1, o]⟩ : Shape).BroadcastsInDim ⟨2, ![n, o]⟩ ![0, 1])
    (h0 : (⟨0, ![]⟩ : Shape).BroadcastsInDim ⟨2, ![n, o]⟩ ![])
    (hE : (⟨0, ![]⟩ : Shape).BroadcastsInDim ⟨1, ![o]⟩ ![]) :
    maximumf (addf (mulf (subf (addf (Host.dotGeneral d2 none
        (maximumf (addf (Host.dotGeneral d1 none (addf x agg) w1)
            (broadcastInDim ⟨2, ![n, o]⟩ ![0, 1] h2 (broadcastInDim ⟨2, ![1, o]⟩ ![1] h1 b1)))
          (broadcastInDim ⟨2, ![n, o]⟩ ![] h0 (constant (F := Ideal) ⟨0, ![]⟩ .f32 0x00000000#32)))
        w2)
          (broadcastInDim ⟨2, ![n, o]⟩ ![0, 1] h2 (broadcastInDim ⟨2, ![1, o]⟩ ![1] h1 b2)))
          (broadcastInDim ⟨2, ![n, o]⟩ ![0, 1] h2 (broadcastInDim ⟨2, ![1, o]⟩ ![1] h1 mu)))
          (broadcastInDim ⟨2, ![n, o]⟩ ![0, 1] h2 (broadcastInDim ⟨2, ![1, o]⟩ ![1] h1
            (mulf g (Host.rsqrt (addf var
              (broadcastInDim ⟨1, ![o]⟩ ![] hE (constant (F := Ideal) ⟨0, ![]⟩ .f32 0x3727C5AC#32))))))))
          (broadcastInDim ⟨2, ![n, o]⟩ ![0, 1] h2 (broadcastInDim ⟨2, ![1, o]⟩ ![1] h1 bb)))
      (broadcastInDim ⟨2, ![n, o]⟩ ![] h0 (constant (F := Ideal) ⟨0, ![]⟩ .f32 0x00000000#32))
      = nodeUpd x agg w1 b1 w2 b2 g bb mu var := by
  have he : broadcastInDim ⟨1, ![o]⟩ ![] hE (constant (F := Ideal) ⟨0, ![]⟩ .f32 0x3727C5AC#32)
      = fun _ => Ideal.ofBits .f32 0x3727C5AC#32 :=
    funext fun i => broadcastInDim_apply _ hE _ i ix0 fun ax => ax.elim0
  rw [he, hostMm_eq d1 wf1 hd1, hostMm_eq d2 wf2 hd2, hostBias_eq b1 h1 h2, hostBias_eq b2 h1 h2, hostBias_eq mu h1 h2,
    hostBias_eq bb h1 h2, hostBias_eq _ h1 h2, hostRect_eq, hostRect_eq]
  rfl

/-- Row r of the node stage over a block of rows is row p of the stage over the whole arrays, when the block's row r
    is the arrays' row p. -/
theorem nodeUpd_row (x agg : Mat n k) (x' agg' : Mat n' k) (w1 : Mat k o) (b1 : Row o) (w2 : Mat o o)
    (b2 g bb mu var : Row o) (p : Fin n) (r : Fin n')
    (hx : ∀ j : Fin k, x' (ix2 r j) = x (ix2 p j)) (ha : ∀ j : Fin k, agg' (ix2 r j) = agg (ix2 p j)) (q : Fin o) :
    nodeUpd x' agg' w1 b1 w2 b2 g bb mu var (ix2 r q) = nodeUpd x agg w1 b1 w2 b2 g bb mu var (ix2 p q) := by
  have hrow : ∀ j : Fin o, rect (dense (fun i => x' i + agg' i) w1 b1) (ix2 r j)
      = rect (dense (fun i => x i + agg i) w1 b1) (ix2 p j) := fun j => by
    show max (mm (fun i => x' i + agg' i) w1 (ix2 r j) + b1 (ix1 j)) _
      = max (mm (fun i => x i + agg i) w1 (ix2 p j) + b1 (ix1 j)) _
    rw [mm_apply, mm_apply]
    simp only [hx, ha]
  show max ((mm (rect (dense (fun i => x' i + agg' i) w1 b1)) w2 (ix2 r q) + b2 (ix1 q) - mu (ix1 q))
        * normScale g var (ix1 q) + bb (ix1 q)) _
    = max ((mm (rect (dense (fun i => x i + agg i) w1 b1)) w2 (ix2 p q) + b2 (ix1 q) - mu (ix1 q))
        * normScale g var (ix1 q) + bb (ix1 q)) _
  rw [mm_apply, mm_apply]
  simp only [hrow]

end Cert.Gine

end
-- ==== Proof.Region0.lean ====
/-
  The first edge-message call, read as a value.  Its grid has 100 points; point t stages rows 8000 t … 8000 t + 7999 of
  the edge features [800000, 32] and of the gathered source rows [800000, 128], the whole weight [32, 128] and the whole
  bias [128], and writes back rows 8000 t … 8000 t + 7999 of the result [800000, 128].  The body computes the edge stage
  on its block, and a row of the edge stage depends on that row of its row-indexed operands only; so what point t
  writes back is block t of the edge stage of the whole arrays, and since the 100 blocks cover the result array, the
  array ends as the edge stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the edge stage of its four loaded blocks. -/
theorem pay_eq (x0 : Vec Ideal S8000x32 .f32) (x1 : Vec Ideal S32x128 .f32) (x3 : Vec Ideal S128 .f32)
    (x7 : Vec Ideal S8000x128 .f32) : k0_pay1 x0 x1 x3 x7 = edgeMsg x7 x0 x1 x3 :=
  tileEdge_eq dot_S8000x32_S32x128_S8000x128_1_0_0_1_n_n _ rfl x0 x1 x3 x7 _ _ _

/-- The index maps over the grid: the row-blocked windows sit at block (t, 0), the weight and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- One entry of the edge stage over a block whose rows are rows T·8000 … of the arrays. -/
theorem block_point (A0 : Mat 800000 32) (A1 : Mat 800000 128) (w : Mat 32 128) (b : Row 128)
    (x0 : Mat 8000 32) (x1 : Mat 8000 128) (x2 : Mat 32 128) (x3 : Row 128) (T : Nat) (hT : T < 100)
    (h0 : ∀ (r : Fin 8000) (j : Fin 32), x0 (ix2 r j) = A0 (ix2 ⟨T * 8000 + r.val, by omega⟩ j))
    (h1 : ∀ (r : Fin 8000) (j : Fin 128), x1 (ix2 r j) = A1 (ix2 ⟨T * 8000 + r.val, by omega⟩ j))
    (h2 : x2 = w) (h3 : x3 = b) (r : Fin 8000) (q : Fin 128) :
    edgeMsg x1 x0 x2 x3 (ix2 r q) = edgeMsg A1 A0 w b (ix2 ⟨T * 8000 + r.val, by omega⟩ q) := by
  subst h2 h3
  exact edgeMsg_row A1 A0 x1 x0 x2 x3 _ r (h1 r) (h0 r) q

/-- What point t writes back is block t of the edge stage of the arrays the call found. -/
theorem flushed_eq (c : Dev nD) (t : Fin cfg0.N) :
    (dat0 V c).flushed 4 t = ((cfg0.win 4).blk t).view.read (Elt Ideal)
      (edgeMsg (V c main_v10) (V c main_arg1) (V c main_arg2) (V c main_arg3)) := by
  show (cfg0.win 4).cut (grid0.coords t) ((dat0 V c).after 4 t) = _
  rw [after0_4]
  unfold out0_4
  rw [View.canon_unit_zero hz2]
  simp only [View.ld_unit_zero (S := S8000x32) hz2, View.ld_unit_zero (S := S32x128) hz2,
    View.ld_unit_zero (S := S128) hz1, View.ld_unit_zero (S := S8000x128) hz2]
  rw [pay_eq]
  obtain ⟨e00, e01, e10, e11, e20, e21, e30, e40, e41⟩ := idx_facts t
  have hT : t.val < 100 := N_0 ▸ t.isLt
  refine funext fun (y : S8000x128.Idx) => ?_
  obtain ⟨r, q, rfl⟩ : ∃ (r : Fin 8000) (q : Fin 128), y = ix2 r q := ⟨y 0, y 1, eq_ix2 y⟩
  refine (block_point (V c main_arg1) (V c main_v10) (V c main_arg2) (V c main_arg3)
    (iblk0 V c 0 t) (iblk0 V c 1 t) (iblk0 V c 2 t) (iblk0 V c 3 t) t.val hT ?_ ?_ ?_ ?_ r q).trans ?_
  · intro r j
    show V c main_arg1 (((cfg0.win 0).blk t).view.emb (ix2 r j)) = _
    refine congrArg _ (funext fun a => Fin.ext ?_)
    match a with
    | ⟨0, _⟩ => show win0_0.index t (0 : Fin 2) * 8000 + 1 * r.val = t.val * 8000 + r.val; omega
    | ⟨1, _⟩ => show win0_0.index t (1 : Fin 2) * 32 + 1 * j.val = j.val; omega
  · intro r j
    show V c main_v10 (((cfg0.win 1).blk t).view.emb (ix2 r j)) = _
    refine congrArg _ (funext fun a => Fin.ext ?_)
    match a with
    | ⟨0, _⟩ => show win0_1.index t (0 : Fin 2) * 8000 + 1 * r.val = t.val * 8000 + r.val; omega
    | ⟨1, _⟩ => show win0_1.index t (1 : Fin 2) * 128 + 1 * j.val = j.val; omega
  · refine funext fun (z : S32x128.Idx) => ?_
    show V c main_arg2 (((cfg0.win 2).blk t).view.emb z) = V c main_arg2 z
    refine congrArg _ (funext fun a => Fin.ext ?_)
    match a with
    | ⟨0, _⟩ => show win0_2.index t (0 : Fin 2) * 32 + 1 * (z 0).val = (z 0).val; omega
    | ⟨1, _⟩ => show win0_2.index t (1 : Fin 2) * 128 + 1 * (z 1).val = (z 1).val; omega
  · refine funext fun (z : S128.Idx) => ?_
    show V c main_arg3 (((cfg0.win 3).blk t).view.emb z) = V c main_arg3 z
    refine congrArg _ (funext fun a => Fin.ext ?_)
    match a with
    | ⟨0, _⟩ => show win0_3.index t (0 : Fin 1) * 128 + 1 * (z 0).val = (z 0).val; omega
  · show _ = edgeMsg (V c main_v10) (V c main_arg1) (V c main_arg2) (V c main_arg3)
      (((cfg0.win 4).blk t).view.emb (ix2 r q))
    refine congrArg _ (funext fun a => Fin.ext ?_)
    match a with
    | ⟨0, _⟩ => show t.val * 8000 + r.val = win0_4.index t (0 : Fin 2) * 8000 + 1 * r.val; omega
    | ⟨1, _⟩ => show q.val = win0_4.index t (1 : Fin 2) * 128 + 1 * q.val; omega

/-- An index of the result array is in point t's block iff each coordinate is in the block's range on its axis. -/
theorem mem_blk (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v11).slice (win0_4.rect t)).set ↔ _
  rw [View.set_slice_whole, Rect.mem_set_unit]
  exact Iff.rfl

/-- Row i of the result lies in the block of point i / 8000. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hlt : (i 0).val / 8000 < cfg0.N := by rw [show cfg0.N = 100 from N_0]; omega
  obtain ⟨-, -, -, -, -, -, -, e40, e41⟩ := idx_facts ⟨(i 0).val / 8000, hlt⟩
  refine ⟨⟨(i 0).val / 8000, hlt⟩, flush0_4 _, ?_⟩
  rw [mem_blk]
  intro a
  match a with
  | ⟨0, _⟩ =>
    show win0_4.index ⟨(i 0).val / 8000, hlt⟩ (0 : Fin 2) * 8000 ≤ (i 0).val
      ∧ (i 0).val < win0_4.index ⟨(i 0).val / 8000, hlt⟩ (0 : Fin 2) * 8000 + 8000
    rw [e40]; show (i 0).val / 8000 * 8000 ≤ (i 0).val ∧ (i 0).val < (i 0).val / 8000 * 8000 + 8000; omega
  | ⟨1, _⟩ =>
    show win0_4.index ⟨(i 0).val / 8000, hlt⟩ (1 : Fin 2) * 128 ≤ (i 1).val
      ∧ (i 1).val < win0_4.index ⟨(i 0).val / 8000, hlt⟩ (1 : Fin 2) * 128 + 128
    rw [e41]; omega

/-- The result array after the call: the edge stage of the arrays the call found. -/
theorem value (c : Dev nD) :
    (dat0 V c).arrAt 4 cfg0.N = edgeMsg (V c main_v10) (V c main_arg1) (V c main_arg2) (V c main_arg3) :=
  (dat0 V c).arrAt_eq_of_cover 4 _ (fun t _ => flushed_eq V c t) cover

end Cert.KernelIdeal.Region0

end
-- ==== Proof.Region1.lean ====
/-
  The first node-update call, read as a value.  Its grid has 10 points; point t stages rows 5000 t … 5000 t + 4999 of the
  node rows [50000, 128] and of the aggregated messages [50000, 128], the whole of the two weights and of the six
  vectors, and writes back rows 5000 t … 5000 t + 4999 of the result [50000, 64].  The body computes the node stage on
  its block, and a row of the node stage depends on that row of its two row-indexed operands only; so what point t
  writes back is block t of the node stage of the whole arrays, and since the 10 blocks cover the result array, the
  array ends as the node stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the node stage of its ten loaded blocks. -/
theorem pay_eq (x a : Vec Ideal S5000x128 .f32) (w1 : Vec Ideal S128x64 .f32) (b1 : Vec Ideal S64 .f32)
    (w2 : Vec Ideal S64x64 .f32) (b2 g var mu bb : Vec Ideal S64 .f32) :
    k1_pay1 x a w1 b1 w2 b2 g var mu bb = nodeUpd x a w1 b1 w2 b2 g bb mu var :=
  tileNode_eq dot_S5000x128_S128x64_S5000x64_1_0_0_1_n_n _ rfl dot_S5000x64_S64x64_S5000x64_1_0_0_1_n_n _ rfl
    x a w1 b1 w2 b2 g bb mu var _ _ _

/-- The index maps over the grid: the row-blocked windows sit at block (t, 0), every other window at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 ∧ win1_6.index t (0 : Fin 1) = 0 ∧ win1_7.index t (0 : Fin 1) = 0
    ∧ win1_8.index t (0 : Fin 1) = 0 ∧ win1_9.index t (0 : Fin 1) = 0
    ∧ win1_10.index t (0 : Fin 2) = t.val ∧ win1_10.index t (1 : Fin 2) = 0 :=
  (by decide +kernel : ∀ t : Fin grid1.N, _)

/-- One entry of the node stage over a block whose rows are rows T·5000 … of the arrays. -/
theorem block_point (X A : Mat 50000 128) (x a : Mat 5000 128) (w1 w1' : Mat 128 64) (b1 b1' : Row 64)
    (w2 w2' : Mat 64 64) (b2 b2' g g' bb bb' mu mu' var var' : Row 64) (T : Nat) (hT : T < 10)
    (h0 : ∀ (r : Fin 5000) (j : Fin 128), x (ix2 r j) = X (ix2 ⟨T * 5000 + r.val, by omega⟩ j))
    (h1 : ∀ (r : Fin 5000) (j : Fin 128), a (ix2 r j) = A (ix2 ⟨T * 5000 + r.val, by omega⟩ j))
    (e2 : w1' = w1) (e3 : b1' = b1) (e4 : w2' = w2) (e5 : b2' = b2) (e6 : g' = g) (e7 : bb' = bb) (e8 : mu' = mu)
    (e9 : var' = var) (r : Fin 5000) (q : Fin 64) :
    nodeUpd x a w1' b1' w2' b2' g' bb' mu' var' (ix2 r q)
      = nodeUpd X A w1 b1 w2 b2 g bb mu var (ix2 ⟨T * 5000 + r.val, by omega⟩ q) := by
  subst e2 e3 e4 e5 e6 e7 e8 e9
  exact nodeUpd_row X A x a _ _ _ _ _ _ _ _ _ r (h0 r) (h1 r) q

set_option maxHeartbeats 1000000 in
/-- What point t writes back is block t of the node stage of the arrays the call found. -/
theorem flushed_eq (c : Dev nD) (t : Fin cfg1.N) :
    (dat1 V c).flushed 10 t = ((cfg1.win 10).blk t).view.read (Elt Ideal)
      (nodeUpd (V c main_arg0) (V c main_v14) (V c main_arg4) (V c main_arg5) (V c main_arg6) (V c main_arg7)
        (V c main_arg8) (V c main_arg9) (V c main_arg10) (V c main_arg11)) := by
  show (cfg1.win 10).cut (grid1.coords t) ((dat1 V c).after 10 t) = _
  rw [after1_10]
  unfold out1_10
  rw [View.canon_unit_zero hz2]
  simp only [View.ld_unit_zero (S := S5000x128) hz2, View.ld_unit_zero (S := S128x64) hz2,
    View.ld_unit_zero (S := S64x64) hz2, View.ld_unit_zero (S := S64) hz1]
  rw [pay_eq]
  obtain ⟨e00, e01, e10, e11, e20, e21, e30, e40, e41, e50, e60, e70, e80, e90, eo0, eo1⟩ := idx_facts t
  have hT : t.val < 10 := N_1 ▸ t.isLt
  refine funext fun (y : S5000x64.Idx) => ?_
  obtain ⟨r, q, rfl⟩ : ∃ (r : Fin 5000) (q : Fin 64), y = ix2 r q := ⟨y 0, y 1, eq_ix2 y⟩
  refine (block_point (V c main_arg0) (V c main_v14) (iblk1 V c 0 t) (iblk1 V c 1 t)
    (V c main_arg4) (iblk1 V c 2 t) (V c main_arg5) (iblk1 V c 3 t) (V c main_arg6) (iblk1 V c 4 t)
    (V c main_arg7) (iblk1 V c 5 t) (V c main_arg8) (iblk1 V c 6 t) (V c main_arg9) (iblk1 V c 7 t)
    (V c main_arg10) (iblk1 V c 8 t) (V c main_arg11) (iblk1 V c 9 t) t.val hT ?_ ?_ ?_ ?_ ?_ ?_ ?_ ?_ ?_ ?_ r q).trans ?_
  · intro r j
    show V c main_arg0 (((cfg1.win 0).blk t).view.emb (ix2 r j)) = _
    refine congrArg _ (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * j.val = j.val; omega
  · intro r j
    show V c main_v14 (((cfg1.win 1).blk t).view.emb (ix2 r j)) = _
    refine congrArg _ (funext fun a => Fin.ext ?_)
    match a with
    | ⟨0, _⟩ => show win1_1.index t (0 : Fin 2) * 5000 + 1 * r.val = t.val * 5000 + r.val; omega
    | ⟨1, _⟩ => show win1_1.index t (1 : Fin 2) * 128 + 1 * j.val = j.val; omega
  · refine funext fun (z : S128x64.Idx) => ?_
    show V c main_arg4 (((cfg1.win 2).blk t).view.emb z) = V c main_arg4 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 64 + 1 * (z 1).val = (z 1).val; omega
  · refine funext fun (z : S64.Idx) => ?_
    show V c main_arg5 (((cfg1.win 3).blk t).view.emb z) = V c main_arg5 z
    refine congrArg _ (funext fun a => Fin.ext ?_)
    match a with
    | ⟨0, _⟩ => show win1_3.index t (0 : Fin 1) * 64 + 1 * (z 0).val = (z 0).val; omega
  · refine funext fun (z : S64x64.Idx) => ?_
    show V c main_arg6 (((cfg1.win 4).blk t).view.emb z) = V c main_arg6 z
    refine congrArg _ (funext fun a => Fin.ext ?_)
    match a with
    | ⟨0, _⟩ => show win1_4.index t (0 : Fin 2) * 64 + 1 * (z 0).val = (z 0).val; omega
    | ⟨1, _⟩ => show win1_4.index t (1 : Fin 2) * 64 + 1 * (z 1).val = (z 1).val; omega
  · refine funext fun (z : S64.Idx) => ?_
    show V c main_arg7 (((cfg1.win 5).blk t).view.emb z) = V c main_arg7 z
    refine congrArg _ (funext fun a => Fin.ext ?_)
    match a with
    | ⟨0, _⟩ => show win1_5.index t (0 : Fin 1) * 64 + 1 * (z 0).val = (z 0).val; omega
  · refine funext fun (z : S64.Idx) => ?_
    show V c main_arg8 (((cfg1.win 6).blk t).view.emb z) = V c main_arg8 z
    refine congrArg _ (funext fun a => Fin.ext ?_)
    match a with
    | ⟨0, _⟩ => show win1_6.index t (0 : Fin 1) * 64 + 1 * (z 0).val = (z 0).val; omega
  · refine funext fun (z : S64.Idx) => ?_
    show V c main_arg9 (((cfg1.win 7).blk t).view.emb z) = V c main_arg9 z
    refine congrArg _ (funext fun a => Fin.ext ?_)
    match a with
    | ⟨0, _⟩ => show win1_7.index t (0 : Fin 1) * 64 + 1 * (z 0).val = (z 0).val; omega
  · refine funext fun (z : S64.Idx) => ?_
    show V c main_arg10 (((cfg1.win 8).blk t).view.emb z) = V c main_arg10 z
    refine congrArg _ (funext fun a => Fin.ext ?_)
    match a with
    | ⟨0, _⟩ => show win1_8.index t (0 : Fin 1) * 64 + 1 * (z 0).val = (z 0).val; omega
  · refine funext fun (z : S64.Idx) => ?_
    show V c main_arg11 (((cfg1.win 9).blk t).view.emb z) = V c main_arg11 z
    refine congrArg _ (funext fun a => Fin.ext ?_)
    match a with
    | ⟨0, _⟩ => show win1_9.index t (0 : Fin 1) * 64 + 1 * (z 0).val = (z 0).val; omega
  · show _ = nodeUpd (V c main_arg0) (V c main_v14) (V c main_arg4) (V c main_arg5) (V c main_arg6) (V c main_arg7)
        (V c main_arg8) (V c main_arg9) (V c main_arg10) (V c main_arg11) (((cfg1.win 10).blk t).view.emb (ix2 r q))
    refine congrArg _ (funext fun a => Fin.ext ?_)
    match a with
    | ⟨0, _⟩ => show t.val * 5000 + r.val = win1_10.index t (0 : Fin 2) * 5000 + 1 * r.val; omega
    | ⟨1, _⟩ => show q.val = win1_10.index t (1 : Fin 2) * 64 + 1 * q.val; omega

/-- An index of the result array is in point t's block iff each coordinate is in the block's range on its axis. -/
theorem mem_blk (t : Fin cfg1.N) (i : S50000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v15).slice (win1_10.rect t)).set ↔ _
  rw [View.set_slice_whole, Rect.mem_set_unit]
  exact Iff.rfl

/-- Row i of the result lies in the block of point i / 5000. -/
theorem cover (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have hlt : (i 0).val / 5000 < cfg1.N := by rw [show cfg1.N = 10 from N_1]; omega
  obtain ⟨-, -, -, -, -, -, -, -, -, -, -, -, -, -, eo0, eo1⟩ := idx_facts ⟨(i 0).val / 5000, hlt⟩
  refine ⟨⟨(i 0).val / 5000, hlt⟩, flush1_10 _, ?_⟩
  rw [mem_blk]
  intro a
  match a with
  | ⟨0, _⟩ =>
    show win1_10.index ⟨(i 0).val / 5000, hlt⟩ (0 : Fin 2) * 5000 ≤ (i 0).val
      ∧ (i 0).val < win1_10.index ⟨(i 0).val / 5000, hlt⟩ (0 : Fin 2) * 5000 + 5000
    rw [eo0]; show (i 0).val / 5000 * 5000 ≤ (i 0).val ∧ (i 0).val < (i 0).val / 5000 * 5000 + 5000; omega
  | ⟨1, _⟩ =>
    show win1_10.index ⟨(i 0).val / 5000, hlt⟩ (1 : Fin 2) * 64 ≤ (i 1).val
      ∧ (i 1).val < win1_10.index ⟨(i 0).val / 5000, hlt⟩ (1 : Fin 2) * 64 + 64
    rw [eo1]; omega

/-- The result array after the call: the node stage of the arrays the call found. -/
theorem value (c : Dev nD) :
    (dat1 V c).arrAt 10 cfg1.N = nodeUpd (V c main_arg0) (V c main_v14) (V c main_arg4) (V c main_arg5)
      (V c main_arg6) (V c main_arg7) (V c main_arg8) (V c main_arg9) (V c main_arg10) (V c main_arg11) :=
  (dat1 V c).arrAt_eq_of_cover 10 _ (fun t _ => flushed_eq V c t) cover

end Cert.KernelIdeal.Region1

end
-- ==== Proof.Region2.lean ====
/-
  The second edge-message call, read as a value.  Its grid has 100 points; point t stages rows 8000 t … 8000 t + 7999 of
  the edge features [800000, 32] and of the gathered source rows [800000, 64], the whole weight [32, 64] and the whole
  bias [64], and writes back rows 8000 t … 8000 t + 7999 of the result [800000, 64].  The body computes the edge stage
  on its block, and a row of the edge stage depends on that row of its row-indexed operands only; so what point t
  writes back is block t of the edge stage of the whole arrays, and since the 100 blocks cover the result array, the
  array ends as the edge stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the edge stage of its four loaded blocks. -/
theorem pay_eq (x0 : Vec Ideal S8000x32 .f32) (x1 : Vec Ideal S32x64 .f32) (x3 : Vec Ideal S64 .f32)
    (x7 : Vec Ideal S8000x64 .f32) : k2_pay1 x0 x1 x3 x7 = edgeMsg x7 x0 x1 x3 :=
  tileEdge_eq dot_S8000x32_S32x64_S8000x64_1_0_0_1_n_n _ rfl x0 x1 x3 x7 _ _ _

/-- The index maps over the grid: the row-blocked windows sit at block (t, 0), the weight and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- One entry of the edge stage over a block whose rows are rows T·8000 … of the arrays. -/
theorem block_point (A0 : Mat 800000 32) (A1 : Mat 800000 64) (w : Mat 32 64) (b : Row 64)
    (x0 : Mat 8000 32) (x1 : Mat 8000 64) (x2 : Mat 32 64) (x3 : Row 64) (T : Nat) (hT : T < 100)
    (h0 : ∀ (r : Fin 8000) (j : Fin 32), x0 (ix2 r j) = A0 (ix2 ⟨T * 8000 + r.val, by omega⟩ j))
    (h1 : ∀ (r : Fin 8000) (j : Fin 64), x1 (ix2 r j) = A1 (ix2 ⟨T * 8000 + r.val, by omega⟩ j))
    (h2 : x2 = w) (h3 : x3 = b) (r : Fin 8000) (q : Fin 64) :
    edgeMsg x1 x0 x2 x3 (ix2 r q) = edgeMsg A1 A0 w b (ix2 ⟨T * 8000 + r.val, by omega⟩ q) := by
  subst h2 h3
  exact edgeMsg_row A1 A0 x1 x0 x2 x3 _ r (h1 r) (h0 r) q

/-- What point t writes back is block t of the edge stage of the arrays the call found. -/
theorem flushed_eq (c : Dev nD) (t : Fin cfg2.N) :
    (dat2 V c).flushed 4 t = ((cfg2.win 4).blk t).view.read (Elt Ideal)
      (edgeMsg (V c main_v22) (V c main_arg1) (V c main_arg12) (V c main_arg13)) := by
  show (cfg2.win 4).cut (grid2.coords t) ((dat2 V c).after 4 t) = _
  rw [after2_4]
  unfold out2_4
  rw [View.canon_unit_zero hz2]
  simp only [View.ld_unit_zero (S := S8000x32) hz2, View.ld_unit_zero (S := S32x64) hz2,
    View.ld_unit_zero (S := S64) hz1, View.ld_unit_zero (S := S8000x64) hz2]
  rw [pay_eq]
  obtain ⟨e00, e01, e10, e11, e20, e21, e30, e40, e41⟩ := idx_facts t
  have hT : t.val < 100 := N_2 ▸ t.isLt
  refine funext fun (y : S8000x64.Idx) => ?_
  obtain ⟨r, q, rfl⟩ : ∃ (r : Fin 8000) (q : Fin 64), y = ix2 r q := ⟨y 0, y 1, eq_ix2 y⟩
  refine (block_point (V c main_arg1) (V c main_v22) (V c main_arg12) (V c main_arg13)
    (iblk2 V c 0 t) (iblk2 V c 1 t) (iblk2 V c 2 t) (iblk2 V c 3 t) t.val hT ?_ ?_ ?_ ?_ r q).trans ?_
  · intro r j
    show V c main_arg1 (((cfg2.win 0).blk t).view.emb (ix2 r j)) = _
    refine congrArg _ (funext fun a => Fin.ext ?_)
    match a with
    | ⟨0, _⟩ => show win2_0.index t (0 : Fin 2) * 8000 + 1 * r.val = t.val * 8000 + r.val; omega
    | ⟨1, _⟩ => show win2_0.index t (1 : Fin 2) * 32 + 1 * j.val = j.val; omega
  · intro r j
    show V c main_v22 (((cfg2.win 1).blk t).view.emb (ix2 r j)) = _
    refine congrArg _ (funext fun a => Fin.ext ?_)
    match a with
    | ⟨0, _⟩ => show win2_1.index t (0 : Fin 2) * 8000 + 1 * r.val = t.val * 8000 + r.val; omega
    | ⟨1, _⟩ => show win2_1.index t (1 : Fin 2) * 64 + 1 * j.val = j.val; omega
  · refine funext fun (z : S32x64.Idx) => ?_
    show V c main_arg12 (((cfg2.win 2).blk t).view.emb z) = V c main_arg12 z
    refine congrArg _ (funext fun a => Fin.ext ?_)
    match a with
    | ⟨0, _⟩ => show win2_2.index t (0 : Fin 2) * 32 + 1 * (z 0).val = (z 0).val; omega
    | ⟨1, _⟩ => show win2_2.index t (1 : Fin 2) * 64 + 1 * (z 1).val = (z 1).val; omega
  · refine funext fun (z : S64.Idx) => ?_
    show V c main_arg13 (((cfg2.win 3).blk t).view.emb z) = V c main_arg13 z
    refine congrArg _ (funext fun a => Fin.ext ?_)
    match a with
    | ⟨0, _⟩ => show win2_3.index t (0 : Fin 1) * 64 + 1 * (z 0).val = (z 0).val; omega
  · show _ = edgeMsg (V c main_v22) (V c main_arg1) (V c main_arg12) (V c main_arg13)
      (((cfg2.win 4).blk t).view.emb (ix2 r q))
    refine congrArg _ (funext fun a => Fin.ext ?_)
    match a with
    | ⟨0, _⟩ => show t.val * 8000 + r.val = win2_4.index t (0 : Fin 2) * 8000 + 1 * r.val; omega
    | ⟨1, _⟩ => show q.val = win2_4.index t (1 : Fin 2) * 64 + 1 * q.val; omega

/-- An index of the result array is in point t's block iff each coordinate is in the block's range on its axis. -/
theorem mem_blk (t : Fin cfg2.N) (i : S800000x64.Idx) :
    i ∈ ((cfg2.win 4).blk t).view.set ↔ ∀ a : Fin 2, win2_4.index t a * S8000x64.size a ≤ (i a).val
      ∧ (i a).val < win2_4.index t a * S8000x64.size a + S8000x64.size a := by
  show i ∈ ((View.whole main_v23).slice (win2_4.rect t)).set ↔ _
  rw [View.set_slice_whole, Rect.mem_set_unit]
  exact Iff.rfl

/-- Row i of the result lies in the block of point i / 8000. -/
theorem cover (i : S800000x64.Idx) :
    ∃ t : Fin cfg2.N, (cfg2.win 4).flush t = true ∧ i ∈ ((cfg2.win 4).blk t).view.set := by
  have hi0 : (i 0).val < 800000 := (i 0).isLt
  have hi1 : (i 1).val < 64 := (i 1).isLt
  have hlt : (i 0).val / 8000 < cfg2.N := by rw [show cfg2.N = 100 from N_2]; omega
  obtain ⟨-, -, -, -, -, -, -, e40, e41⟩ := idx_facts ⟨(i 0).val / 8000, hlt⟩
  refine ⟨⟨(i 0).val / 8000, hlt⟩, flush2_4 _, ?_⟩
  rw [mem_blk]
  intro a
  match a with
  | ⟨0, _⟩ =>
    show win2_4.index ⟨(i 0).val / 8000, hlt⟩ (0 : Fin 2) * 8000 ≤ (i 0).val
      ∧ (i 0).val < win2_4.index ⟨(i 0).val / 8000, hlt⟩ (0 : Fin 2) * 8000 + 8000
    rw [e40]; show (i 0).val / 8000 * 8000 ≤ (i 0).val ∧ (i 0).val < (i 0).val / 8000 * 8000 + 8000; omega
  | ⟨1, _⟩ =>
    show win2_4.index ⟨(i 0).val / 8000, hlt⟩ (1 : Fin 2) * 64 ≤ (i 1).val
      ∧ (i 1).val < win2_4.index ⟨(i 0).val / 8000, hlt⟩ (1 : Fin 2) * 64 + 64
    rw [e41]; omega

/-- The result array after the call: the edge stage of the arrays the call found. -/
theorem value (c : Dev nD) :
    (dat2 V c).arrAt 4 cfg2.N = edgeMsg (V c main_v22) (V c main_arg1) (V c main_arg12) (V c main_arg13) :=
  (dat2 V c).arrAt_eq_of_cover 4 _ (fun t _ => flushed_eq V c t) cover

end Cert.KernelIdeal.Region2

end
-- ==== Proof.Region3.lean ====
/-
  The second node-update call, read as a value.  Its grid has 10 points; point t stages rows 5000 t … 5000 t + 4999 of the
  node rows [50000, 64] and of the aggregated messages [50000, 64], the whole of the two weights and of the six
  vectors, and writes back rows 5000 t … 5000 t + 4999 of the result [50000, 64].  The body computes the node stage on
  its block, and a row of the node stage depends on that row of its two row-indexed operands only; so what point t
  writes back is block t of the node stage of the whole arrays, and since the 10 blocks cover the result array, the
  array ends as the node stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the node stage of its ten loaded blocks. -/
theorem pay_eq (x a : Vec Ideal S5000x64 .f32) (w1 : Vec Ideal S64x64 .f32) (b1 : Vec Ideal S64 .f32)
    (w2 : Vec Ideal S64x64 .f32) (b2 g var mu bb : Vec Ideal S64 .f32) :
    k3_pay1 x a w1 b1 w2 b2 g var mu bb = nodeUpd x a w1 b1 w2 b2 g bb mu var :=
  tileNodeCast_eq dot_S5000x64_S64x64_S5000x64_1_0_0_1_n_n _ rfl dot_S5000x64_S64x64_S5000x64_1_0_0_1_n_n _ rfl
    x a w1 b1 w2 b2 g bb mu var _ _ _

/-- The index maps over the grid: the row-blocked windows sit at block (t, 0), every other window at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0 ∧ win3_6.index t (0 : Fin 1) = 0 ∧ win3_7.index t (0 : Fin 1) = 0
    ∧ win3_8.index t (0 : Fin 1) = 0 ∧ win3_9.index t (0 : Fin 1) = 0
    ∧ win3_10.index t (0 : Fin 2) = t.val ∧ win3_10.index t (1 : Fin 2) = 0 :=
  (by decide +kernel : ∀ t : Fin grid3.N, _)

/-- One entry of the node stage over a block whose rows are rows T·5000 … of the arrays. -/
theorem block_point (X A : Mat 50000 64) (x a : Mat 5000 64) (w1 w1' : Mat 64 64) (b1 b1' : Row 64)
    (w2 w2' : Mat 64 64) (b2 b2' g g' bb bb' mu mu' var var' : Row 64) (T : Nat) (hT : T < 10)
    (h0 : ∀ (r : Fin 5000) (j : Fin 64), x (ix2 r j) = X (ix2 ⟨T * 5000 + r.val, by omega⟩ j))
    (h1 : ∀ (r : Fin 5000) (j : Fin 64), a (ix2 r j) = A (ix2 ⟨T * 5000 + r.val, by omega⟩ j))
    (e2 : w1' = w1) (e3 : b1' = b1) (e4 : w2' = w2) (e5 : b2' = b2) (e6 : g' = g) (e7 : bb' = bb) (e8 : mu' = mu)
    (e9 : var' = var) (r : Fin 5000) (q : Fin 64) :
    nodeUpd x a w1' b1' w2' b2' g' bb' mu' var' (ix2 r q)
      = nodeUpd X A w1 b1 w2 b2 g bb mu var (ix2 ⟨T * 5000 + r.val, by omega⟩ q) := by
  subst e2 e3 e4 e5 e6 e7 e8 e9
  exact nodeUpd_row X A x a _ _ _ _ _ _ _ _ _ r (h0 r) (h1 r) q

set_option maxHeartbeats 1000000 in
/-- What point t writes back is block t of the node stage of the arrays the call found. -/
theorem flushed_eq (c : Dev nD) (t : Fin cfg3.N) :
    (dat3 V c).flushed 10 t = ((cfg3.win 10).blk t).view.read (Elt Ideal)
      (nodeUpd (V c main_v15) (V c main_v26) (V c main_arg14) (V c main_arg15) (V c main_arg16) (V c main_arg17)
        (V c main_arg18) (V c main_arg19) (V c main_arg20) (V c main_arg21)) := by
  show (cfg3.win 10).cut (grid3.coords t) ((dat3 V c).after 10 t) = _
  rw [after3_10]
  unfold out3_10
  rw [View.canon_unit_zero hz2]
  simp only [View.ld_unit_zero (S := S5000x64) hz2, View.ld_unit_zero (S := S64x64) hz2,
    View.ld_unit_zero (S := S64x64) hz2, View.ld_unit_zero (S := S64) hz1]
  rw [pay_eq]
  obtain ⟨e00, e01, e10, e11, e20, e21, e30, e40, e41, e50, e60, e70, e80, e90, eo0, eo1⟩ := idx_facts t
  have hT : t.val < 10 := N_3 ▸ t.isLt
  refine funext fun (y : S5000x64.Idx) => ?_
  obtain ⟨r, q, rfl⟩ : ∃ (r : Fin 5000) (q : Fin 64), y = ix2 r q := ⟨y 0, y 1, eq_ix2 y⟩
  refine (block_point (V c main_v15) (V c main_v26) (iblk3 V c 0 t) (iblk3 V c 1 t)
    (V c main_arg14) (iblk3 V c 2 t) (V c main_arg15) (iblk3 V c 3 t) (V c main_arg16) (iblk3 V c 4 t)
    (V c main_arg17) (iblk3 V c 5 t) (V c main_arg18) (iblk3 V c 6 t) (V c main_arg19) (iblk3 V c 7 t)
    (V c main_arg20) (iblk3 V c 8 t) (V c main_arg21) (iblk3 V c 9 t) t.val hT ?_ ?_ ?_ ?_ ?_ ?_ ?_ ?_ ?_ ?_ r q).trans ?_
  · intro r j
    show V c main_v15 (((cfg3.win 0).blk t).view.emb (ix2 r j)) = _
    refine congrArg _ (funext fun a => Fin.ext ?_)
    match a with
    | ⟨0, _⟩ => show win3_0.index t (0 : Fin 2) * 5000 + 1 * r.val = t.val * 5000 + r.val; omega
    | ⟨1, _⟩ => show win3_0.index t (1 : Fin 2) * 64 + 1 * j.val = j.val; omega
  · intro r j
    show V c main_v26 (((cfg3.win 1).blk t).view.emb (ix2 r j)) = _
    refine congrArg _ (funext fun a => Fin.ext ?_)
    match a with
    | ⟨0, _⟩ => show win3_1.index t (0 : Fin 2) * 5000 + 1 * r.val = t.val * 5000 + r.val; omega
    | ⟨1, _⟩ => show win3_1.index t (1 : Fin 2) * 64 + 1 * j.val = j.val; omega
  · refine funext fun (z : S64x64.Idx) => ?_
    show V c main_arg14 (((cfg3.win 2).blk t).view.emb z) = V c main_arg14 z
    refine congrArg _ (funext fun a => Fin.ext ?_)
    match a with
    | ⟨0, _⟩ => show win3_2.index t (0 : Fin 2) * 64 + 1 * (z 0).val = (z 0).val; omega
    | ⟨1, _⟩ => show win3_2.index t (1 : Fin 2) * 64 + 1 * (z 1).val = (z 1).val; omega
  · refine funext fun (z : S64.Idx) => ?_
    show V c main_arg15 (((cfg3.win 3).blk t).view.emb z) = V c main_arg15 z
    refine congrArg _ (funext fun a => Fin.ext ?_)
    match a with
    | ⟨0, _⟩ => show win3_3.index t (0 : Fin 1) * 64 + 1 * (z 0).val = (z 0).val; omega
  · refine funext fun (z : S64x64.Idx) => ?_
    show V c main_arg16 (((cfg3.win 4).blk t).view.emb z) = V c main_arg16 z
    refine congrArg _ (funext fun a => Fin.ext ?_)
    match a with
    | ⟨0, _⟩ => show win3_4.index t (0 : Fin 2) * 64 + 1 * (z 0).val = (z 0).val; omega
    | ⟨1, _⟩ => show win3_4.index t (1 : Fin 2) * 64 + 1 * (z 1).val = (z 1).val; omega
  · refine funext fun (z : S64.Idx) => ?_
    show V c main_arg17 (((cfg3.win 5).blk t).view.emb z) = V c main_arg17 z
    refine congrArg _ (funext fun a => Fin.ext ?_)
    match a with
    | ⟨0, _⟩ => show win3_5.index t (0 : Fin 1) * 64 + 1 * (z 0).val = (z 0).val; omega
  · refine funext fun (z : S64.Idx) => ?_
    show V c main_arg18 (((cfg3.win 6).blk t).view.emb z) = V c main_arg18 z
    refine congrArg _ (funext fun a => Fin.ext ?_)
    match a with
    | ⟨0, _⟩ => show win3_6.index t (0 : Fin 1) * 64 + 1 * (z 0).val = (z 0).val; omega
  · refine funext fun (z : S64.Idx) => ?_
    show V c main_arg19 (((cfg3.win 7).blk t).view.emb z) = V c main_arg19 z
    refine congrArg _ (funext fun a => Fin.ext ?_)
    match a with
    | ⟨0, _⟩ => show win3_7.index t (0 : Fin 1) * 64 + 1 * (z 0).val = (z 0).val; omega
  · refine funext fun (z : S64.Idx) => ?_
    show V c main_arg20 (((cfg3.win 8).blk t).view.emb z) = V c main_arg20 z
    refine congrArg _ (funext fun a => Fin.ext ?_)
    match a with
    | ⟨0, _⟩ => show win3_8.index t (0 : Fin 1) * 64 + 1 * (z 0).val = (z 0).val; omega
  · refine funext fun (z : S64.Idx) => ?_
    show V c main_arg21 (((cfg3.win 9).blk t).view.emb z) = V c main_arg21 z
    refine congrArg _ (funext fun a => Fin.ext ?_)
    match a with
    | ⟨0, _⟩ => show win3_9.index t (0 : Fin 1) * 64 + 1 * (z 0).val = (z 0).val; omega
  · show _ = nodeUpd (V c main_v15) (V c main_v26) (V c main_arg14) (V c main_arg15) (V c main_arg16) (V c main_arg17)
        (V c main_arg18) (V c main_arg19) (V c main_arg20) (V c main_arg21) (((cfg3.win 10).blk t).view.emb (ix2 r q))
    refine congrArg _ (funext fun a => Fin.ext ?_)
    match a with
    | ⟨0, _⟩ => show t.val * 5000 + r.val = win3_10.index t (0 : Fin 2) * 5000 + 1 * r.val; omega
    | ⟨1, _⟩ => show q.val = win3_10.index t (1 : Fin 2) * 64 + 1 * q.val; omega

/-- An index of the result array is in point t's block iff each coordinate is in the block's range on its axis. -/
theorem mem_blk (t : Fin cfg3.N) (i : S50000x64.Idx) :
    i ∈ ((cfg3.win 10).blk t).view.set ↔ ∀ a : Fin 2, win3_10.index t a * S5000x64.size a ≤ (i a).val
      ∧ (i a).val < win3_10.index t a * S5000x64.size a + S5000x64.size a := by
  show i ∈ ((View.whole main_v27).slice (win3_10.rect t)).set ↔ _
  rw [View.set_slice_whole, Rect.mem_set_unit]
  exact Iff.rfl

/-- Row i of the result lies in the block of point i / 5000. -/
theorem cover (i : S50000x64.Idx) :
    ∃ t : Fin cfg3.N, (cfg3.win 10).flush t = true ∧ i ∈ ((cfg3.win 10).blk t).view.set := by
  have hi0 : (i 0).val < 50000 := (i 0).isLt
  have hi1 : (i 1).val < 64 := (i 1).isLt
  have hlt : (i 0).val / 5000 < cfg3.N := by rw [show cfg3.N = 10 from N_3]; omega
  obtain ⟨-, -, -, -, -, -, -, -, -, -, -, -, -, -, eo0, eo1⟩ := idx_facts ⟨(i 0).val / 5000, hlt⟩
  refine ⟨⟨(i 0).val / 5000, hlt⟩, flush3_10 _, ?_⟩
  rw [mem_blk]
  intro a
  match a with
  | ⟨0, _⟩ =>
    show win3_10.index ⟨(i 0).val / 5000, hlt⟩ (0 : Fin 2) * 5000 ≤ (i 0).val
      ∧ (i 0).val < win3_10.index ⟨(i 0).val / 5000, hlt⟩ (0 : Fin 2) * 5000 + 5000
    rw [eo0]; show (i 0).val / 5000 * 5000 ≤ (i 0).val ∧ (i 0).val < (i 0).val / 5000 * 5000 + 5000; omega
  | ⟨1, _⟩ =>
    show win3_10.index ⟨(i 0).val / 5000, hlt⟩ (1 : Fin 2) * 64 ≤ (i 1).val
      ∧ (i 1).val < win3_10.index ⟨(i 0).val / 5000, hlt⟩ (1 : Fin 2) * 64 + 64
    rw [eo1]; omega

/-- The result array after the call: the node stage of the arrays the call found. -/
theorem value (c : Dev nD) :
    (dat3 V c).arrAt 10 cfg3.N = nodeUpd (V c main_v15) (V c main_v26) (V c main_arg14) (V c main_arg15)
      (V c main_arg16) (V c main_arg17) (V c main_arg18) (V c main_arg19) (V c main_arg20) (V c main_arg21) :=
  (dat3 V c).arrAt_eq_of_cover 10 _ (fun t _ => flushed_eq V c t) cover

end Cert.KernelIdeal.Region3

end
-- ==== Proof.Region4.lean ====
/-
  The third edge-message call, read as a value.  Its grid has 100 points; point t stages rows 8000 t … 8000 t + 7999 of
  the edge features [800000, 32] and of the gathered source rows [800000, 64], the whole weight [32, 64] and the whole
  bias [64], and writes back rows 8000 t … 8000 t + 7999 of the result [800000, 64].  The body computes the edge stage
  on its block, and a row of the edge stage depends on that row of its row-indexed operands only; so what point t
  writes back is block t of the edge stage of the whole arrays, and since the 100 blocks cover the result array, the
  array ends as the edge stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the edge stage of its four loaded blocks. -/
theorem pay_eq (x0 : Vec Ideal S8000x32 .f32) (x1 : Vec Ideal S32x64 .f32) (x3 : Vec Ideal S64 .f32)
    (x7 : Vec Ideal S8000x64 .f32) : k4_pay1 x0 x1 x3 x7 = edgeMsg x7 x0 x1 x3 :=
  tileEdge_eq dot_S8000x32_S32x64_S8000x64_1_0_0_1_n_n _ rfl x0 x1 x3 x7 _ _ _

/-- The index maps over the grid: the row-blocked windows sit at block (t, 0), the weight and the bias at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- One entry of the edge stage over a block whose rows are rows T·8000 … of the arrays. -/
theorem block_point (A0 : Mat 800000 32) (A1 : Mat 800000 64) (w : Mat 32 64) (b : Row 64)
    (x0 : Mat 8000 32) (x1 : Mat 8000 64) (x2 : Mat 32 64) (x3 : Row 64) (T : Nat) (hT : T < 100)
    (h0 : ∀ (r : Fin 8000) (j : Fin 32), x0 (ix2 r j) = A0 (ix2 ⟨T * 8000 + r.val, by omega⟩ j))
    (h1 : ∀ (r : Fin 8000) (j : Fin 64), x1 (ix2 r j) = A1 (ix2 ⟨T * 8000 + r.val, by omega⟩ j))
    (h2 : x2 = w) (h3 : x3 = b) (r : Fin 8000) (q : Fin 64) :
    edgeMsg x1 x0 x2 x3 (ix2 r q) = edgeMsg A1 A0 w b (ix2 ⟨T * 8000 + r.val, by omega⟩ q) := by
  subst h2 h3
  exact edgeMsg_row A1 A0 x1 x0 x2 x3 _ r (h1 r) (h0 r) q

/-- What point t writes back is block t of the edge stage of the arrays the call found. -/
theorem flushed_eq (c : Dev nD) (t : Fin cfg4.N) :
    (dat4 V c).flushed 4 t = ((cfg4.win 4).blk t).view.read (Elt Ideal)
      (edgeMsg (V c main_v34) (V c main_arg1) (V c main_arg22) (V c main_arg23)) := by
  show (cfg4.win 4).cut (grid4.coords t) ((dat4 V c).after 4 t) = _
  rw [after4_4]
  unfold out4_4
  rw [View.canon_unit_zero hz2]
  simp only [View.ld_unit_zero (S := S8000x32) hz2, View.ld_unit_zero (S := S32x64) hz2,
    View.ld_unit_zero (S := S64) hz1, View.ld_unit_zero (S := S8000x64) hz2]
  rw [pay_eq]
  obtain ⟨e00, e01, e10, e11, e20, e21, e30, e40, e41⟩ := idx_facts t
  have hT : t.val < 100 := N_4 ▸ t.isLt
  refine funext fun (y : S8000x64.Idx) => ?_
  obtain ⟨r, q, rfl⟩ : ∃ (r : Fin 8000) (q : Fin 64), y = ix2 r q := ⟨y 0, y 1, eq_ix2 y⟩
  refine (block_point (V c main_arg1) (V c main_v34) (V c main_arg22) (V c main_arg23)
    (iblk4 V c 0 t) (iblk4 V c 1 t) (iblk4 V c 2 t) (iblk4 V c 3 t) t.val hT ?_ ?_ ?_ ?_ r q).trans ?_
  · intro r j
    show V c main_arg1 (((cfg4.win 0).blk t).view.emb (ix2 r j)) = _
    refine congrArg _ (funext fun a => Fin.ext ?_)
    match a with
    | ⟨0, _⟩ => show win4_0.index t (0 : Fin 2) * 8000 + 1 * r.val = t.val * 8000 + r.val; omega
    | ⟨1, _⟩ => show win4_0.index t (1 : Fin 2) * 32 + 1 * j.val = j.val; omega
  · intro r j
    show V c main_v34 (((cfg4.win 1).blk t).view.emb (ix2 r j)) = _
    refine congrArg _ (funext fun a => Fin.ext ?_)
    match a with
    | ⟨0, _⟩ => show win4_1.index t (0 : Fin 2) * 8000 + 1 * r.val = t.val * 8000 + r.val; omega
    | ⟨1, _⟩ => show win4_1.index t (1 : Fin 2) * 64 + 1 * j.val = j.val; omega
  · refine funext fun (z : S32x64.Idx) => ?_
    show V c main_arg22 (((cfg4.win 2).blk t).view.emb z) = V c main_arg22 z
    refine congrArg _ (funext fun a => Fin.ext ?_)
    match a with
    | ⟨0, _⟩ => show win4_2.index t (0 : Fin 2) * 32 + 1 * (z 0).val = (z 0).val; omega
    | ⟨1, _⟩ => show win4_2.index t (1 : Fin 2) * 64 + 1 * (z 1).val = (z 1).val; omega
  · refine funext fun (z : S64.Idx) => ?_
    show V c main_arg23 (((cfg4.win 3).blk t).view.emb z) = V c main_arg23 z
    refine congrArg _ (funext fun a => Fin.ext ?_)
    match a with
    | ⟨0, _⟩ => show win4_3.index t (0 : Fin 1) * 64 + 1 * (z 0).val = (z 0).val; omega
  · show _ = edgeMsg (V c main_v34) (V c main_arg1) (V c main_arg22) (V c main_arg23)
      (((cfg4.win 4).blk t).view.emb (ix2 r q))
    refine congrArg _ (funext fun a => Fin.ext ?_)
    match a with
    | ⟨0, _⟩ => show t.val * 8000 + r.val = win4_4.index t (0 : Fin 2) * 8000 + 1 * r.val; omega
    | ⟨1, _⟩ => show q.val = win4_4.index t (1 : Fin 2) * 64 + 1 * q.val; omega

/-- An index of the result array is in point t's block iff each coordinate is in the block's range on its axis. -/
theorem mem_blk (t : Fin cfg4.N) (i : S800000x64.Idx) :
    i ∈ ((cfg4.win 4).blk t).view.set ↔ ∀ a : Fin 2, win4_4.index t a * S8000x64.size a ≤ (i a).val
      ∧ (i a).val < win4_4.index t a * S8000x64.size a + S8000x64.size a := by
  show i ∈ ((View.whole main_v35).slice (win4_4.rect t)).set ↔ _
  rw [View.set_slice_whole, Rect.mem_set_unit]
  exact Iff.rfl

/-- Row i of the result lies in the block of point i / 8000. -/
theorem cover (i : S800000x64.Idx) :
    ∃ t : Fin cfg4.N, (cfg4.win 4).flush t = true ∧ i ∈ ((cfg4.win 4).blk t).view.set := by
  have hi0 : (i 0).val < 800000 := (i 0).isLt
  have hi1 : (i 1).val < 64 := (i 1).isLt
  have hlt : (i 0).val / 8000 < cfg4.N := by rw [show cfg4.N = 100 from N_4]; omega
  obtain ⟨-, -, -, -, -, -, -, e40, e41⟩ := idx_facts ⟨(i 0).val / 8000, hlt⟩
  refine ⟨⟨(i 0).val / 8000, hlt⟩, flush4_4 _, ?_⟩
  rw [mem_blk]
  intro a
  match a with
  | ⟨0, _⟩ =>
    show win4_4.index ⟨(i 0).val / 8000, hlt⟩ (0 : Fin 2) * 8000 ≤ (i 0).val
      ∧ (i 0).val < win4_4.index ⟨(i 0).val / 8000, hlt⟩ (0 : Fin 2) * 8000 + 8000
    rw [e40]; show (i 0).val / 8000 * 8000 ≤ (i 0).val ∧ (i 0).val < (i 0).val / 8000 * 8000 + 8000; omega
  | ⟨1, _⟩ =>
    show win4_4.index ⟨(i 0).val / 8000, hlt⟩ (1 : Fin 2) * 64 ≤ (i 1).val
      ∧ (i 1).val < win4_4.index ⟨(i 0).val / 8000, hlt⟩ (1 : Fin 2) * 64 + 64
    rw [e41]; omega

/-- The result array after the call: the edge stage of the arrays the call found. -/
theorem value (c : Dev nD) :
    (dat4 V c).arrAt 4 cfg4.N = edgeMsg (V c main_v34) (V c main_arg1) (V c main_arg22) (V c main_arg23) :=
  (dat4 V c).arrAt_eq_of_cover 4 _ (fun t _ => flushed_eq V c t) cover

end Cert.KernelIdeal.Region4

end
-- ==== Proof.Region5.lean ====
/-
  The third node-update call, read as a value.  Its grid has 10 points; point t stages rows 5000 t … 5000 t + 4999 of the
  node rows [50000, 64] and of the aggregated messages [50000, 64], the whole of the two weights and of the six
  vectors, and writes back rows 5000 t … 5000 t + 4999 of the result [50000, 96].  The body computes the node stage on
  its block, and a row of the node stage depends on that row of its two row-indexed operands only; so what point t
  writes back is block t of the node stage of the whole arrays, and since the 10 blocks cover the result array, the
  array ends as the node stage of the arrays the call found.
-/
import proofs.«179759_j61555471286658_1_alg».proof.Proof.PatchedKernelIdealFrame
import proofs.«179759_j61555471286658_1_alg».proof.Proof.LibGineLayer
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx Cert.Layers Cert.Gine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the node stage of its ten loaded blocks. -/
theorem pay_eq (x a : Vec Ideal S5000x64 .f32) (w1 : Vec Ideal S64x96 .f32) (b1 : Vec Ideal S96 .f32)
    (w2 : Vec Ideal S96x96 .f32) (b2 g var mu bb : Vec Ideal S96 .f32) :
    k5_pay1 x a w1 b1 w2 b2 g var mu bb = nodeUpd x a w1 b1 w2 b2 g bb mu var :=
  tileNodeCast_eq dot_S5000x64_S64x96_S5000x96_1_0_0_1_n_n _ rfl dot_S5000x96_S96x96_S5000x96_1_0_0_1_n_n _ rfl
    x a w1 b1 w2 b2 g bb mu var _ _ _

/-- The index maps over the grid: the row-blocked windows sit at block (t, 0), every other window at block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0 ∧ win5_6.index t (0 : Fin 1) = 0 ∧ win5_7.index t (0 : Fin 1) = 0
    ∧ win5_8.index t (0 : Fin 1) = 0 ∧ win5_9.index t (0 : Fin 1) = 0
    ∧ win5_10.index t (0 : Fin 2) = t.val ∧ win5_10.index t (1 : Fin 2) = 0 :=
  (by decide +kernel : ∀ t : Fin grid5.N, _)

/-- One entry of the node stage over a block whose rows are rows T·5000 … of the arrays. -/
theorem block_point (X A : Mat 50000 64) (x a : Mat 5000 64) (w1 w1' : Mat 64 96) (b1 b1' : Row 96)
    (w2 w2' : Mat 96 96) (b2 b2' g g' bb bb' mu mu' var var' : Row 96) (T : Nat) (hT : T < 10)
    (h0 : ∀ (r : Fin 5000) (j : Fin 64), x (ix2 r j) = X (ix2 ⟨T * 5000 + r.val, by omega⟩ j))
    (h1 : ∀ (r : Fin 5000) (j : Fin 64), a (ix2 r j) = A (ix2 ⟨T * 5000 + r.val, by omega⟩ j))
    (e2 : w1' = w1) (e3 : b1' = b1) (e4 : w2' = w2) (e5 : b2' = b2) (e6 : g' = g) (e7 : bb' = bb) (e8 : mu' = mu)
    (e9 : var' = var) (r : Fin 5000) (q : Fin 96) :
    nodeUpd x a w1' b1' w2' b2' g' bb' mu' var' (ix2 r q)
      = nodeUpd X A w1 b1 w2 b2 g bb mu var (ix2 ⟨T * 5000 + r.val, by omega⟩ q) := by
  subst e2 e3 e4 e5 e6 e7 e8 e9
  exact nodeUpd_row X A x a _ _ _ _ _ _ _ _ _ r (h0 r) (h1 r) q

set_option maxHeartbeats 1000000 in
/-- What point t writes back is block t of the node stage of the arrays the call found. -/
theorem flushed_eq (c : Dev nD) (t : Fin cfg5.N) :
    (dat5 V c).flushed 10 t = ((cfg5.win 10).blk t).view.read (Elt Ideal)
      (nodeUpd (V c main_v27) (V c main_v38) (V c main_arg24) (V c main_arg25) (V c main_arg26) (V c main_arg27)
        (V c main_arg28) (V c main_arg29) (V c main_arg30) (V c main_arg31)) := by
  show (cfg5.win 10).cut (grid5.coords t) ((dat5 V c).after 10 t) = _
  rw [after5_10]
  unfold out5_10
  rw [View.canon_unit_zero hz2]
  simp only [View.ld_unit_zero (S := S5000x64) hz2, View.ld_unit_zero (S := S64x96) hz2,
    View.ld_unit_zero (S := S96x96) hz2, View.ld_unit_zero (S := S96) hz1]
  rw [pay_eq]
  obtain ⟨e00, e01, e10, e11, e20, e21, e30, e40, e41, e50, e60, e70, e80, e90, eo0, eo1⟩ := idx_facts t
  have hT : t.val < 10 := N_5 ▸ t.isLt
  refine funext fun (y : S5000x96.Idx) => ?_
  obtain ⟨r, q, rfl⟩ : ∃ (r : Fin 5000) (q : Fin 96), y = ix2 r q := ⟨y 0, y 1, eq_ix2 y⟩
  refine (block_point (V c main_v27) (V c main_v38) (iblk5 V c 0 t) (iblk5 V c 1 t)
    (V c main_arg24) (iblk5 V c 2 t) (V c main_arg25) (iblk5 V c 3 t) (V c main_arg26) (iblk5 V c 4 t)
    (V c main_arg27) (iblk5 V c 5 t) (V c main_arg28) (iblk5 V c 6 t) (V c main_arg29) (iblk5 V c 7 t)
    (V c main_arg30) (iblk5 V c 8 t) (V c main_arg31) (iblk5 V c 9 t) t.val hT ?_ ?_ ?_ ?_ ?_ ?_ ?_ ?_ ?_ ?_ r q).trans ?_
  · intro r j
    show V c main_v27 (((cfg5.win 0).blk t).view.emb (ix2 r j)) = _
    refine congrArg _ (funext fun a => Fin.ext ?_)
    match a with
    | ⟨0, _⟩ => show win5_0.index t (0 : Fin 2) * 5000 + 1 * r.val = t.val * 5000 + r.val; omega
    | ⟨1, _⟩ => show win5_0.index t (1 : Fin 2) * 64 + 1 * j.val = j.val; omega
  · intro r j
    show V c main_v38 (((cfg5.win 1).blk t).view.emb (ix2 r j)) = _
    refine congrArg _ (funext fun a => Fin.ext ?_)
    match a with
    | ⟨0, _⟩ => show win5_1.index t (0 : Fin 2) * 5000 + 1 * r.val = t.val * 5000 + r.val; omega
    | ⟨1, _⟩ => show win5_1.index t (1 : Fin 2) * 64 + 1 * j.val = j.val; omega
  · refine funext fun (z : S64x96.Idx) => ?_
    show V c main_arg24 (((cfg5.win 2).blk t).view.emb z) = V c main_arg24 z
    refine congrArg _ (funext fun a => Fin.ext ?_)
    match a with
    | ⟨0, _⟩ => show win5_2.index t (0 : Fin 2) * 64 + 1 * (z 0).val = (z 0).val; omega
    | ⟨1, _⟩ => show win5_2.index t (1 : Fin 2) * 96 + 1 * (z 1).val = (z 1).val; omega
  · refine funext fun (z : S96.Idx) => ?_
    show V c main_arg25 (((cfg5.win 3).blk t).view.emb z) = V c main_arg25 z
    refine congrArg _ (funext fun a => Fin.ext ?_)
    match a with
    | ⟨0, _⟩ => show win5_3.index t (0 : Fin 1) * 96 + 1 * (z 0).val = (z 0).val; omega
  · refine funext fun (z : S96x96.Idx) => ?_
    show V c main_arg26 (((cfg5.win 4).blk t).view.emb z) = V c main_arg26 z
    refine congrArg _ (funext fun a => Fin.ext ?_)
    match a with
    | ⟨0, _⟩ => show win5_4.index t (0 : Fin 2) * 96 + 1 * (z 0).val = (z 0).val; omega
    | ⟨1, _⟩ => show win5_4.index t (1 : Fin 2) * 96 + 1 * (z 1).val = (z 1).val; omega
  · refine funext fun (z : S96.Idx) => ?_
    show V c main_arg27 (((cfg5.win 5).blk t).view.emb z) = V c main_arg27 z
    refine congrArg _ (funext fun a => Fin.ext ?_)
    match a with
    | ⟨0, _⟩ => show win5_5.index t (0 : Fin 1) * 96 + 1 * (z 0).val = (z 0).val; omega
  · refine funext fun (z : S96.Idx) => ?_
    show V c main_arg28 (((cfg5.win 6).blk t).view.emb z) = V c main_arg28 z
    refine congrArg _ (funext fun a => Fin.ext ?_)
    match a with
    | ⟨0, _⟩ => show win5_6.index t (0 : Fin 1) * 96 + 1 * (z 0).val = (z 0).val; omega
  · refine funext fun (z : S96.Idx) => ?_
    show V c main_arg29 (((cfg5.win 7).blk t).view.emb z) = V c main_arg29 z
    refine congrArg _ (funext fun a => Fin.ext ?_)
    match a with
    | ⟨0, _⟩ => show win5_7.index t (0 : Fin 1) * 96 + 1 * (z 0).val = (z 0).val; omega
  · refine funext fun (z : S96.Idx) => ?_
    show V c main_arg30 (((cfg5.win 8).blk t).view.emb z) = V c main_arg30 z
    refine congrArg _ (funext fun a => Fin.ext ?_)
    match a with
    | ⟨0, _⟩ => show win5_8.index t (0 : Fin 1) * 96 + 1 * (z 0).val = (z 0).val; omega
  · refine funext fun (z : S96.Idx) => ?_
    show V c main_arg31 (((cfg5.win 9).blk t).view.emb z) = V c main_arg31 z
    refine congrArg _ (funext fun a => Fin.ext ?_)
    match a with
    | ⟨0, _⟩ => show win5_9.index t (0 : Fin 1) * 96 + 1 * (z 0).val = (z 0).val; omega
  · show _ = nodeUpd (V c main_v27) (V c main_v38) (V c main_arg24) (V c main_arg25) (V c main_arg26) (V c main_arg27)
        (V c main_arg28) (V c main_arg29) (V c main_arg30) (V c main_arg31) (((cfg5.win 10).blk t).view.emb (ix2 r q))
    refine congrArg _ (funext fun a => Fin.ext ?_)
    match a with
    | ⟨0, _⟩ => show t.val * 5000 + r.val = win5_10.index t (0 : Fin 2) * 5000 + 1 * r.val; omega
    | ⟨1, _⟩ => show q.val = win5_10.index t (1 : Fin 2) * 96 + 1 * q.val; omega

/-- An index of the result array is in point t's block iff each coordinate is in the block's range on its axis. -/
theorem mem_blk (t : Fin cfg5.N) (i : S50000x96.Idx) :
    i ∈ ((cfg5.win 10).blk t).view.set ↔ ∀ a : Fin 2, win5_10.index t a * S5000x96.size a ≤ (i a).val
      ∧ (i a).val < win5_10.index t a * S5000x96.size a + S5000x96.size a := by
  show i ∈ ((View.whole main_v39).slice (win5_10.rect t)).set ↔ _
  rw [View.set_slice_whole, Rect.mem_set_unit]
  exact Iff.rfl

/-- Row i of the result lies in the block of point i / 5000. -/
theorem cover (i : S50000x96.Idx) :
    ∃ t : Fin cfg5.N, (cfg5.win 10).flush t = true ∧ i ∈ ((cfg5.win 10).blk t).view.set := by
  have hi0 : (i 0).val < 50000 := (i 0).isLt
  have hi1 : (i 1).val < 96 := (i 1).isLt
  have hlt : (i 0).val / 5000 < cfg5.N := by rw [show cfg5.N = 10 from N_5]; omega
  obtain ⟨-, -, -, -, -, -, -, -, -, -, -, -, -, -, eo0, eo1⟩ := idx_facts ⟨(i 0).val / 5000, hlt⟩
  refine ⟨⟨(i 0).val / 5000, hlt⟩, flush5_10 _, ?_⟩
  rw [mem_blk]
  intro a
  match a with
  | ⟨0, _⟩ =>
    show win5_10.index ⟨(i 0).val / 5000, hlt⟩ (0 : Fin 2) * 5000 ≤ (i 0).val
      ∧ (i 0).val < win5_10.index ⟨(i 0).val / 5000, hlt⟩ (0 : Fin 2) * 5000 + 5000
    rw [eo0]; show (i 0).val / 5000 * 5000 ≤ (i 0).val ∧ (i 0).val < (i 0).val / 5000 * 5000 + 5000; omega
  | ⟨1, _⟩ =>
    show win5_10.index ⟨(i 0).val / 5000, hlt⟩ (1 : Fin 2) * 96 ≤ (i 1).val
      ∧ (i 1).val < win5_10.index ⟨(i 0).val / 5000, hlt⟩ (1 : Fin 2) * 96 + 96
    rw [eo1]; omega

/-- The result array after the call: the node stage of the arrays the call found. -/
theorem value (c : Dev nD) :
    (dat5 V c).arrAt 10 cfg5.N = nodeUpd (V c main_v27) (V c main_v38) (V c main_arg24) (V c main_arg25)
      (V c main_arg26) (V c main_arg27) (V c main_arg28) (V c main_arg29) (V c main_arg30) (V c main_arg31) :=
  (dat5 V c).arrAt_eq_of_cover 10 _ (fun t _ => flushed_eq V c t) cover

end Cert.KernelIdeal.Region5

end
-- ==== Proof.Boundary.lean ====
/-
  The contents of the idealized program's buffers at each boundary between its thirteen segments, as functions of the
  thirty-four argument arrays — read forwards from the launch.  The host stretches of the program are, operation for
  operation, those of the reference (the same index arithmetic on the edge list, the same row gathers, the same
  accumulating scatters, the same mean over the graphs), so what a stretch leaves is the reference's stage of the same
  name applied to what the previous boundary held.  Each of the six kernel calls leaves in its output array the edge
  stage or the node stage of the arrays it found (the region modules), and the reference spells that stage with host
  operations (the layer library); so the call's output is the reference's stage too.  Composing the thirteen steps, the
  result buffer ends at the reference's result stage of the arguments.
  Names: wJ_b says what buffer b holds at boundary J (boundary 0 is the launch, an odd boundary follows a host stretch,
  an even one a kernel call); val_main_vN are the reference's stages (one per operation of its program, as functions
  of the arguments they depend on).
-/
import proofs.«179759_j61555471286658_1_alg».proof.Proof.Keeps
import proofs.«179759_j61555471286658_1_alg».proof.Proof.Region0
import proofs.«179759_j61555471286658_1_alg».proof.Proof.Region1
import proofs.«179759_j61555471286658_1_alg».proof.Proof.Region2
import proofs.«179759_j61555471286658_1_alg».proof.Proof.Region3
import proofs.«179759_j61555471286658_1_alg».proof.Proof.Region4
import proofs.«179759_j61555471286658_1_alg».proof.Proof.Region5
import proofs.«179759_j61555471286658_1_alg».proof.Proof.Gen.ReferenceIdeal.Read
import Idealize.ShloMosaic.Lib.StableHlo.Run

set_option maxRecDepth 16384

noncomputable section

namespace Cert.KernelIdeal.Bd

open Cert.KernelIdeal Cert.KernelIdeal.Gen Idealize.ShloMosaic Idealize.ShloMosaic.TcCoe Idealize.SL.Sem
open Cert.ReferenceIdeal.Read Cert.Layers Cert.Gine

variable (m : (ℓ : Loc nD τ sig) → Buf (Elt Ideal) ℓ) (ρ : Dev nD → PrngReg) (c : Dev nD)

/-- An argument array as launched. -/
abbrev A (r : Ref sig .tc) : Buf (Elt Ideal) ((c : Thread nD τ).loc r) := m ((c : Thread nD τ).loc r)

/-! ## The reference's stages at the arguments (each argument list written once) -/

abbrev src := val_main_v1 (F := Ideal) (A m c main_arg32)
abbrev dst := val_main_v3 (F := Ideal) (A m c main_arg32)
abbrev xs0 := val_main_v14 (F := Ideal) (A m c main_arg0) (A m c main_arg32)
abbrev msg0 := val_main_v16 (F := Ideal) (A m c main_arg0) (A m c main_arg1) (A m c main_arg2) (A m c main_arg3) (A m c main_arg32)
abbrev agg0 := val_main_v19 (F := Ideal) (A m c main_arg0) (A m c main_arg1) (A m c main_arg2) (A m c main_arg3) (A m c main_arg32)
abbrev hid0 := val_main_v43 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg32)
abbrev xs1 := val_main_v54 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg32)
abbrev msg1 := val_main_v56 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg32)
abbrev agg1 := val_main_v59 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg32)
abbrev hid1 := val_main_v83 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg32)
abbrev xs2 := val_main_v94 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg32)
abbrev msg2 := val_main_v96 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg32)
abbrev agg2 := val_main_v99 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg32)
abbrev hid2 := val_main_v123 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32)
abbrev out := val_main_v135 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33)

/-! ## Layer 0 -/

theorem w1_v1 : W1 m ρ c (Proc.devRef .tc main_v1) = src m c := by
  show StableHlo.after hostOps0 (W0 m ρ c) (Proc.devRef .tc main_v1) = _
  after_results
  rfl

theorem w1_v3 : W1 m ρ c (Proc.devRef .tc main_v3) = dst m c := by
  show StableHlo.after hostOps0 (W0 m ρ c) (Proc.devRef .tc main_v3) = _
  after_results
  rfl

theorem w1_v10 : W1 m ρ c (Proc.devRef .tc main_v10) = xs0 m c := by
  show StableHlo.after hostOps0 (W0 m ρ c) (Proc.devRef .tc main_v10) = _
  after_results
  rfl

theorem w2_v11 : W2 m ρ c (Proc.devRef .tc main_v11) = msg0 m c := by
  refine (W2_arr m ρ c 4).trans ((Region0.value (V1 m ρ) c).trans ?_)
  show edgeMsg (W1 m ρ c (Proc.devRef .tc main_v10)) (W1 m ρ c (Proc.devRef .tc main_arg1))
    (W1 m ρ c (Proc.devRef .tc main_arg2)) (W1 m ρ c (Proc.devRef .tc main_arg3)) = _
  rw [w1_v10 m ρ c, Keep.upto1 m ρ c main_arg1 (by decide), Keep.upto1 m ρ c main_arg2 (by decide), Keep.upto1 m ρ c main_arg3 (by decide)]
  exact (hostEdge_eq Cert.ReferenceIdeal.dot_S800000x32_S32x128_S800000x128_1_0_0_1_n_n _ rfl (A m c main_arg1) (A m c main_arg2)
    (A m c main_arg3) (xs0 m c) _ _ _).symm

theorem w2_v3 : W2 m ρ c (Proc.devRef .tc main_v3) = dst m c :=
  (Keep.call0 m ρ c main_v3 (by decide)).trans (w1_v3 m ρ c)

theorem w3_v14 : W3 m ρ c (Proc.devRef .tc main_v14) = agg0 m c := by
  show StableHlo.after hostOps1 (W2 m ρ c) (Proc.devRef .tc main_v14) = _
  after_results
  rw [w2_v3 m ρ c, w2_v11 m ρ c]
  rfl

theorem w4_v15 : W4 m ρ c (Proc.devRef .tc main_v15) = hid0 m c := by
  refine (W4_arr m ρ c 10).trans ((Region1.value (V3 m ρ) c).trans ?_)
  show nodeUpd (W3 m ρ c (Proc.devRef .tc main_arg0)) (W3 m ρ c (Proc.devRef .tc main_v14))
    (W3 m ρ c (Proc.devRef .tc main_arg4)) (W3 m ρ c (Proc.devRef .tc main_arg5))
    (W3 m ρ c (Proc.devRef .tc main_arg6)) (W3 m ρ c (Proc.devRef .tc main_arg7))
    (W3 m ρ c (Proc.devRef .tc main_arg8)) (W3 m ρ c (Proc.devRef .tc main_arg9))
    (W3 m ρ c (Proc.devRef .tc main_arg10)) (W3 m ρ c (Proc.devRef .tc main_arg11)) = _
  rw [w3_v14 m ρ c, Keep.upto3 m ρ c main_arg0 (by decide), Keep.upto3 m ρ c main_arg4 (by decide), Keep.upto3 m ρ c main_arg5 (by decide), Keep.upto3 m ρ c main_arg6 (by decide), Keep.upto3 m ρ c main_arg7 (by decide), Keep.upto3 m ρ c main_arg8 (by decide), Keep.upto3 m ρ c main_arg9 (by decide), Keep.upto3 m ρ c main_arg10 (by decide), Keep.upto3 m ρ c main_arg11 (by decide)]
  exact (hostNode_eq Cert.ReferenceIdeal.dot_S50000x128_S128x64_S50000x64_1_0_0_1_n_n _ rfl
    Cert.ReferenceIdeal.dot_S50000x64_S64x64_S50000x64_1_0_0_1_n_n _ rfl (A m c main_arg0) (agg0 m c) (A m c main_arg4)
    (A m c main_arg5) (A m c main_arg6) (A m c main_arg7) (A m c main_arg8) (A m c main_arg9) (A m c main_arg10)
    (A m c main_arg11) _ _ _ _).symm

/-! ## Layer 1 -/

theorem w4_v1 : W4 m ρ c (Proc.devRef .tc main_v1) = src m c :=
  (Keep.call1 m ρ c main_v1 (by decide)).trans ((Keep.host1 m ρ c main_v1 (by decide)).trans
    ((Keep.call0 m ρ c main_v1 (by decide)).trans (w1_v1 m ρ c)))

theorem w5_v22 : W5 m ρ c (Proc.devRef .tc main_v22) = xs1 m c := by
  show StableHlo.after hostOps2 (W4 m ρ c) (Proc.devRef .tc main_v22) = _
  after_results
  rw [w4_v1 m ρ c, w4_v15 m ρ c]
  rfl

theorem w6_v23 : W6 m ρ c (Proc.devRef .tc main_v23) = msg1 m c := by
  refine (W6_arr m ρ c 4).trans ((Region2.value (V5 m ρ) c).trans ?_)
  show edgeMsg (W5 m ρ c (Proc.devRef .tc main_v22)) (W5 m ρ c (Proc.devRef .tc main_arg1))
    (W5 m ρ c (Proc.devRef .tc main_arg12)) (W5 m ρ c (Proc.devRef .tc main_arg13)) = _
  rw [w5_v22 m ρ c, Keep.upto5 m ρ c main_arg1 (by decide), Keep.upto5 m ρ c main_arg12 (by decide), Keep.upto5 m ρ c main_arg13 (by decide)]
  exact (hostEdge_eq Cert.ReferenceIdeal.dot_S800000x32_S32x64_S800000x64_1_0_0_1_n_n _ rfl (A m c main_arg1) (A m c main_arg12)
    (A m c main_arg13) (xs1 m c) _ _ _).symm

theorem w6_v3 : W6 m ρ c (Proc.devRef .tc main_v3) = dst m c :=
  (Keep.call2 m ρ c main_v3 (by decide)).trans ((Keep.host2 m ρ c main_v3 (by decide)).trans
    ((Keep.call1 m ρ c main_v3 (by decide)).trans ((Keep.host1 m ρ c main_v3 (by decide)).trans (w2_v3 m ρ c))))

theorem w7_v26 : W7 m ρ c (Proc.devRef .tc main_v26) = agg1 m c := by
  show StableHlo.after hostOps3 (W6 m ρ c) (Proc.devRef .tc main_v26) = _
  after_results
  rw [w6_v3 m ρ c, w6_v23 m ρ c]
  rfl

theorem w7_v15 : W7 m ρ c (Proc.devRef .tc main_v15) = hid0 m c :=
  (Keep.host3 m ρ c main_v15 (by decide)).trans ((Keep.call2 m ρ c main_v15 (by decide)).trans
    ((Keep.host2 m ρ c main_v15 (by decide)).trans (w4_v15 m ρ c)))

theorem w8_v27 : W8 m ρ c (Proc.devRef .tc main_v27) = hid1 m c := by
  refine (W8_arr m ρ c 10).trans ((Region3.value (V7 m ρ) c).trans ?_)
  show nodeUpd (W7 m ρ c (Proc.devRef .tc main_v15)) (W7 m ρ c (Proc.devRef .tc main_v26))
    (W7 m ρ c (Proc.devRef .tc main_arg14)) (W7 m ρ c (Proc.devRef .tc main_arg15))
    (W7 m ρ c (Proc.devRef .tc main_arg16)) (W7 m ρ c (Proc.devRef .tc main_arg17))
    (W7 m ρ c (Proc.devRef .tc main_arg18)) (W7 m ρ c (Proc.devRef .tc main_arg19))
    (W7 m ρ c (Proc.devRef .tc main_arg20)) (W7 m ρ c (Proc.devRef .tc main_arg21)) = _
  rw [w7_v15 m ρ c, w7_v26 m ρ c, Keep.upto7 m ρ c main_arg14 (by decide), Keep.upto7 m ρ c main_arg15 (by decide), Keep.upto7 m ρ c main_arg16 (by decide), Keep.upto7 m ρ c main_arg17 (by decide), Keep.upto7 m ρ c main_arg18 (by decide), Keep.upto7 m ρ c main_arg19 (by decide), Keep.upto7 m ρ c main_arg20 (by decide), Keep.upto7 m ρ c main_arg21 (by decide)]
  exact (hostNode_eq Cert.ReferenceIdeal.dot_S50000x64_S64x64_S50000x64_1_0_0_1_n_n _ rfl
    Cert.ReferenceIdeal.dot_S50000x64_S64x64_S50000x64_1_0_0_1_n_n _ rfl (hid0 m c) (agg1 m c) (A m c main_arg14)
    (A m c main_arg15) (A m c main_arg16) (A m c main_arg17) (A m c main_arg18) (A m c main_arg19) (A m c main_arg20)
    (A m c main_arg21) _ _ _ _).symm

/-! ## Layer 2 -/

theorem w8_v1 : W8 m ρ c (Proc.devRef .tc main_v1) = src m c :=
  (Keep.call3 m ρ c main_v1 (by decide)).trans ((Keep.host3 m ρ c main_v1 (by decide)).trans
    ((Keep.call2 m ρ c main_v1 (by decide)).trans ((Keep.host2 m ρ c main_v1 (by decide)).trans (w4_v1 m ρ c))))

theorem w9_v34 : W9 m ρ c (Proc.devRef .tc main_v34) = xs2 m c := by
  show StableHlo.after hostOps4 (W8 m ρ c) (Proc.devRef .tc main_v34) = _
  after_results
  rw [w8_v1 m ρ c, w8_v27 m ρ c]
  rfl

theorem w10_v35 : W10 m ρ c (Proc.devRef .tc main_v35) = msg2 m c := by
  refine (W10_arr m ρ c 4).trans ((Region4.value (V9 m ρ) c).trans ?_)
  show edgeMsg (W9 m ρ c (Proc.devRef .tc main_v34)) (W9 m ρ c (Proc.devRef .tc main_arg1))
    (W9 m ρ c (Proc.devRef .tc main_arg22)) (W9 m ρ c (Proc.devRef .tc main_arg23)) = _
  rw [w9_v34 m ρ c, Keep.upto9 m ρ c main_arg1 (by decide), Keep.upto9 m ρ c main_arg22 (by decide), Keep.upto9 m ρ c main_arg23 (by decide)]
  exact (hostEdge_eq Cert.ReferenceIdeal.dot_S800000x32_S32x64_S800000x64_1_0_0_1_n_n _ rfl (A m c main_arg1) (A m c main_arg22)
    (A m c main_arg23) (xs2 m c) _ _ _).symm

theorem w10_v3 : W10 m ρ c (Proc.devRef .tc main_v3) = dst m c :=
  (Keep.call4 m ρ c main_v3 (by decide)).trans ((Keep.host4 m ρ c main_v3 (by decide)).trans
    ((Keep.call3 m ρ c main_v3 (by decide)).trans ((Keep.host3 m ρ c main_v3 (by decide)).trans (w6_v3 m ρ c))))

theorem w11_v38 : W11 m ρ c (Proc.devRef .tc main_v38) = agg2 m c := by
  show StableHlo.after hostOps5 (W10 m ρ c) (Proc.devRef .tc main_v38) = _
  after_results
  rw [w10_v3 m ρ c, w10_v35 m ρ c]
  rfl

theorem w11_v27 : W11 m ρ c (Proc.devRef .tc main_v27) = hid1 m c :=
  (Keep.host5 m ρ c main_v27 (by decide)).trans ((Keep.call4 m ρ c main_v27 (by decide)).trans
    ((Keep.host4 m ρ c main_v27 (by decide)).trans (w8_v27 m ρ c)))

theorem w12_v39 : W12 m ρ c (Proc.devRef .tc main_v39) = hid2 m c := by
  refine (W12_arr m ρ c 10).trans ((Region5.value (V11 m ρ) c).trans ?_)
  show nodeUpd (W11 m ρ c (Proc.devRef .tc main_v27)) (W11 m ρ c (Proc.devRef .tc main_v38))
    (W11 m ρ c (Proc.devRef .tc main_arg24)) (W11 m ρ c (Proc.devRef .tc main_arg25))
    (W11 m ρ c (Proc.devRef .tc main_arg26)) (W11 m ρ c (Proc.devRef .tc main_arg27))
    (W11 m ρ c (Proc.devRef .tc main_arg28)) (W11 m ρ c (Proc.devRef .tc main_arg29))
    (W11 m ρ c (Proc.devRef .tc main_arg30)) (W11 m ρ c (Proc.devRef .tc main_arg31)) = _
  rw [w11_v27 m ρ c, w11_v38 m ρ c, Keep.upto11 m ρ c main_arg24 (by decide), Keep.upto11 m ρ c main_arg25 (by decide), Keep.upto11 m ρ c main_arg26 (by decide), Keep.upto11 m ρ c main_arg27 (by decide), Keep.upto11 m ρ c main_arg28 (by decide), Keep.upto11 m ρ c main_arg29 (by decide), Keep.upto11 m ρ c main_arg30 (by decide), Keep.upto11 m ρ c main_arg31 (by decide)]
  exact (hostNode_eq Cert.ReferenceIdeal.dot_S50000x64_S64x96_S50000x96_1_0_0_1_n_n _ rfl
    Cert.ReferenceIdeal.dot_S50000x96_S96x96_S50000x96_1_0_0_1_n_n _ rfl (hid1 m c) (agg2 m c) (A m c main_arg24)
    (A m c main_arg25) (A m c main_arg26) (A m c main_arg27) (A m c main_arg28) (A m c main_arg29) (A m c main_arg30)
    (A m c main_arg31) _ _ _ _).symm

/-! ## The mean over the graphs -/

set_option maxHeartbeats 2000000 in
/-- The result buffer at the last boundary is the reference's result stage of the arguments. -/
theorem w13_v51 : W13 m ρ c (Proc.devRef .tc main_v51) = out m c := by
  show StableHlo.after hostOps6 (W12 m ρ c) (Proc.devRef .tc main_v51) = _
  after_results
  rw [w12_v39 m ρ c, Keep.upto12 m ρ c main_arg33 (by decide)]
  rfl

end Cert.KernelIdeal.Bd

end
-- ==== Proof.lean ====
/-
  The certificate of a three-layer graph-isomorphism encoder with edge features followed by a mean over graphs.

  Both programs compute, for node features x, edge features ea, an edge list (src, dst) and a graph assignment:
      three times:  m = max (h[src] + (ea · lew + leb)) 0;  agg = the sum of m's rows into their destination nodes;
                    h = max ((max ((h + agg) · w1 + b1) 0 · w2 + b2 - mu) · (g · (var + eps)^(-1/2)) + bb) 0
      result = (the sum of h's rows into their graphs) / max (the number of nodes of each graph) 1.
  The idealized kernel program computes the edge stage and the node stage of every layer in a kernel call over blocks of
  rows, and everything else with the host operations the reference itself uses.  A kernel call's output array is the
  stage of the arrays it found (the region modules: each grid point writes back its block of rows, a row of a stage
  depends on that row only, the blocks cover the array); the reference spells the same stage with host operations, the
  same arithmetic in the same order (the layer library); so boundary by boundary the kernel program's buffers hold the
  reference's stages of the arguments (the boundary module), and the two results are equal.  No law of arithmetic beyond
  "a product into a zero accumulator is the sum of products" is used, so the precondition is never opened.
  The three frames are the generated ones (the reference's is its generated run with the result dropped); nothing was
  rewritten by the idealization, so the idealization claim is trivial.
-/
import proofs.«179759_j61555471286658_1_alg».proof.Defs
import proofs.«179759_j61555471286658_1_alg».proof.Proof.Gen.Kernel
import proofs.«179759_j61555471286658_1_alg».proof.Proof.PatchedKernelFrame
import proofs.«179759_j61555471286658_1_alg».proof.Proof.Gen.KernelIdeal
import proofs.«179759_j61555471286658_1_alg».proof.Proof.PatchedKernelIdealFrame
import proofs.«179759_j61555471286658_1_alg».proof.Proof.Gen.ReferenceIdeal
import proofs.«179759_j61555471286658_1_alg».proof.Proof.Gen.Pre_finite_inputs
import proofs.«179759_j61555471286658_1_alg».proof.Proof.Gen.ReferenceIdeal.Run
import proofs.«179759_j61555471286658_1_alg».proof.Proof.Gen.ReferenceIdeal.Read
import proofs.«179759_j61555471286658_1_alg».proof.Proof.LibRunBoth
import proofs.«179759_j61555471286658_1_alg».proof.Proof.KernelRun
import proofs.«179759_j61555471286658_1_alg».proof.Proof.Boundary
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was idealized. -/
theorem preserves : Cert.preserves_Kernel_KernelIdeal := trivial

/-- From memories agreeing on the arguments both programs end with the reference's result stage of the arguments in
    their result buffer: the kernel program by the boundary walk, the reference by its own run. -/
theorem algebraic : Cert.algebraic_KernelIdeal_ReferenceIdeal := by
  intro m ρ m' ρ' _ hagree
  refine ⟨fun c => Cert.KernelIdeal.Bd.out m c, ?_, ?_⟩
  · exact (θ_run Cert.KernelIdeal.defs _ _).mono
      (fun _ h c => ⟨(h.1 c).trans (Cert.KernelIdeal.Bd.w13_v51 m ρ c), h.2 c⟩)
      (Cert.LibRunBoth.run_both _ _ _ (Cert.KernelIdeal.RunValue.run (F := Ideal) m ρ)
        (Cert.KernelIdeal.Gen.frame (F := Ideal) m ρ))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33⟩ := hagree c
    rw [Cert.ReferenceIdeal.Read.val_main_v135_eq, h0, h1, h2, h3, h4, h5, h6, h7, h8, h9, h10, h11, h12, h13, h14, h15, h16, h17, h18, h19, h20, h21, h22, h23, h24, h25, h26, h27, h28, h29, h30, h31, h32, h33]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
